-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096 .f32) (main_arg5 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Kernel.lean ====
abbrev S4096x1024 : Shape := ⟨2, ![4096, 1024]⟩
abbrev S4096 : Shape := ⟨1, ![4096]⟩
abbrev S4096x1 : Shape := ⟨2, ![4096, 1]⟩
abbrev S4096x4096 : Shape := ⟨2, ![4096, 4096]⟩
abbrev S256x1024 : Shape := ⟨2, ![256, 1024]⟩
abbrev S512x1024 : Shape := ⟨2, ![512, 1024]⟩
abbrev S256x1 : Shape := ⟨2, ![256, 1]⟩
abbrev S256x4096 : Shape := ⟨2, ![256, 4096]⟩
abbrev S1024x512 : Shape := ⟨2, ![1024, 512]⟩
abbrev S256x512 : Shape := ⟨2, ![256, 512]⟩
abbrev S256 : Shape := ⟨1, ![256]⟩
abbrev S512 : Shape := ⟨1, ![512]⟩
abbrev S512x1 : Shape := ⟨2, ![512, 1]⟩
abbrev S1x512 : Shape := ⟨2, ![1, 512]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x4096, .f32⟩
  | .local _ .vmem, ⟨13, _⟩ => ⟨S256x4096, .f32⟩
  | .local _ .vmem, ⟨14, _⟩ => ⟨S256x4096, .f32⟩
  | .local _ .vmem, ⟨15, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v69 : BitVec 32 := Scalar.muli arg1 c512_i32
  v69
def k0_off1 (i : grid0.Coords) : Fin 2 → Nat :=
  let c0_25 : Index := 0#32
  let arg1 : BitVec 32 := BitVec.ofNat 32 (i 1).val
  let c512_i32 : BitVec 32 := 512#32
  let v69 : BitVec 32 := Scalar.muli arg1 c512_i32
  let v70 : BitVec 32 := v69
  let v71 : Index := Scalar.indexCast v70
  ![0, v71.toNat]
def k0_cond2 (i : grid0.Coords) : BitVec 1 :=
  let arg1 : BitVec 32 := BitVec.ofNat 32 (i 1).val
  let c7_i32 : BitVec 32 := 7#32
  let v82 : BitVec 1 := Scalar.cmpi .eq arg1 c7_i32
  let v83 : BitVec 32 := Scalar.extui v82
  let c0_i32_31 : BitVec 32 := 0#32
  let v84 : BitVec 1 := Scalar.cmpi .ne v83 c0_i32_31
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4096_S4096x1 : S4096.ShapeCasts S4096x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  transposes_S512x1024_p1_0_S1024x512 : S512x1024.Transposes [1, 0] S1024x512
  reduces_S256x1024_S256 : S256x1024.Reduces [1] S256
  shapeCasts_S256_S256x1 : S256.ShapeCasts S256x1
  reduces_S512x1024_S512 : S512x1024.Reduces [1] S512
  shapeCasts_S512_S512x1 : S512.ShapeCasts S512x1
  transposes_S512x1_p1_0_S1x512 : S512x1.Transposes [1, 0] S1x512
  broadcasts_S256x1_S256x512 : S256x1.Broadcasts S256x512
  broadcasts_S1x512_S256x512 : S1x512.Broadcasts S256x512
  h_S256x512 : 0 < S256x512.numel
  shapeCasts_S256x512_S256x512 : S256x512.ShapeCasts S256x512
  reduces_S256x512_S256 : S256x512.Reduces [1] S256
  inb_S256x4096_S256x4096_0_0 : ∀ a, (![0, 0] : Fin 2 → Nat) a + S256x4096.size a ≤ S256x4096.size a
  h_S256x4096 : 0 < S256x4096.numel
  broadcasts_S256x1_S256x4096 : S256x1.Broadcasts S256x4096
  dot_S256x1024_S1024x512_S256x512_1_0_0_1_n_n_wf : DotDims.WF S256x1024 S1024x512 S256x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S256x512.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S4096x4096.size a
  hwx0_6 : ∀ i : grid0.Coords, EltTy.bits .f32 = 32 ∨ (Rect.block (s := S4096x4096) S256x4096.size (cc0_transform_6 i) (hinb0_6 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg2) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S4096x1 : Shape := ⟨2, ![4096, 1]⟩
abbrev S_ : Shape := ⟨0, ![]⟩
abbrev S1x4096 : Shape := ⟨2, ![1, 4096]⟩
abbrev S4096x4096 : Shape := ⟨2, ![4096, 4096]⟩
abbrev S1024x4096 : Shape := ⟨2, ![1024, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S1x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S1024x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x4096, .f32⟩
  | .hbm, ⟨72, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x1024 : S_.BroadcastsInDim S4096x1024 (![] : Fin 0 → Fin S4096x1024.rank)
  reducesTo_S4096x1024_S4096_d1 : S4096x1024.ReducesTo [1] S4096
  h_S_ : 0 < S_.numel
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.WordCases.lean ====
/-
  The grid is 16 row tiles by 8 column tiles, visited row tile by row tile: point t is row tile t / 8 and
  column tile t % 8. The body branches twice on the column tile alone: at column tile 0 it zeroes the
  row-sum scratch, at column tile 7 it divides the posterior scratch by the row sums into the output
  block. Here: the two conditions in closed form over the grid, the points where the output window is
  left untouched, and the memrefs the body is called with.
-/
import proofs.«101770_j38130719653974_1_alg».proof.Proof.Gen.Kernel.Frame
import proofs.«101770_j38130719653974_1_alg».proof.Proof.Gen.Kernel.Skeleton

set_option maxRecDepth 16384

noncomputable section

namespace Cert.Kernel.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions -/

/-- The body's first branch: the column tile is 0. -/
abbrev atFirstCol (i : grid0.Coords) : Prop :=
  (Scalar.cmpi .ne (Scalar.extui (Scalar.cmpi .eq (BitVec.ofNat 32 (i 1).val) 0#32)) 0#32) = 1#1

/-- The column tile is 0 exactly at the points that are multiples of 8. -/
theorem atFirstCol_iff : ∀ t : Fin cfg0.N, atFirstCol (grid0.coords t) ↔ t.val % 8 = 0 :=
  (by decide +kernel : ∀ t : Fin grid0.N, atFirstCol (grid0.coords t) ↔ t.val % 8 = 0)

/-- The body's second branch: the column tile is 7. -/
abbrev atLastCol (i : grid0.Coords) : Prop := k0_cond2 i = 1#1

/-- The column tile is 7 exactly at the points congruent to 7 modulo 8. -/
theorem atLastCol_iff : ∀ t : Fin cfg0.N, atLastCol (grid0.coords t) ↔ t.val % 8 = 7 :=
  (by decide +kernel : ∀ t : Fin grid0.N, atLastCol (grid0.coords t) ↔ t.val % 8 = 7)

/-- The column offset of the slice of the posterior scratch stored at a point: 512 times the column tile. -/
theorem sliceOff_eq : ∀ t : Fin cfg0.N, k0_off1 (grid0.coords t) = ![0, 512 * (t.val % 8)] :=
  (by decide +kernel : ∀ t : Fin grid0.N, k0_off1 (grid0.coords t) = ![0, 512 * (t.val % 8)])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly away from column tile 7. -/
theorem idle6_iff : ∀ t : Fin cfg0.N, cfg0.idle 6 (grid0.coords t) = true ↔ ¬ t.val % 8 = 7 :=
  (by decide +kernel : ∀ t : Fin grid0.N, cfg0.idle 6 (grid0.coords t) = true ↔ ¬ t.val % 8 = 7)

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x4096 .f32 := win0_6.stage (cfg0.slots t 6)
abbrev hs6 (t : Fin cfg0.N) : (ms6 t).IsWhole := hstage0_6 ((cfg0.slots t 6).cast nbuf0_6)
/-- The posterior scratch (256 rows, all 4096 columns of one row tile) and the row-sum scratch. -/
abbrev postM : Memref sig .tc .vmem S256x4096 .f32 := Memref.whole cc0_scratch0
abbrev sumM : Memref sig .tc .vmem S256x1 .f32 := Memref.whole cc0_scratch1

/-- What the launch hands the region beside the windows: both scratches at some contents, and the
    generator register at some state. -/
theorem entryInv_eq (c : Dev nD) :
    (Pipeline.ΦA spec0 c : sProp 𝕄)
      = iprop(iprop((∃ d, owns (c : Thread nD τ) postM fullShare d) ∗ (∃ d, owns (c : Thread nD τ) sumM fullShare d)) ∗ (∃ r, prngReg c r)) := by
  unfold Pipeline.ΦA; rw [scopedRest0_eq]; simp only [postM, sumM, owns_whole]; try rfl

end Cert.Kernel.Knn

end
-- ==== Proof.WordStepFirst.lean ====
/-
  The body at a point of column tile 0: it zeroes the row-sum scratch, writes the first slice of the
  posterior into the posterior scratch, stores the slice's row sums, and leaves the output block as it
  found it.
-/
import proofs.«101770_j38130719653974_1_alg».proof.Proof.WordCases

set_option maxRecDepth 16384

noncomputable section

namespace Cert.Kernel.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the two scratches at column tile 0, with the run: the row-sum
    scratch may hold anything before (it is zeroed first), the posterior scratch holds `xp` and ends at
    `xp` overwritten by its pieces, the output block `xo` is handed back untouched. -/
noncomputable def stepFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (hc0 : atFirstCol i) (hc1 : ¬atLastCol i)
    (x0 : Vec F S256x1024 .f32) (x1 : Vec F S256x1024 .f32) (x2 : Vec F S512x1024 .f32) (x3 : Vec F S512x1024 .f32) (x4 : Vec F S256x1 .f32) (x5 : Vec F S256x1 .f32) :
    Σ' (LP : List (View.Piece (Elt F) S256x4096 .f32)), { LR : List (View.Piece (Elt F) S256x1 .f32) //
      ∀ (xo : Vec F S256x4096 .f32) (xp : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (arg9.view.loc (c : Thread nD τ) ↦[arg9.view.set]{fullShare} arg9.view.writes (Elt F) (harg9.unread xp) LP) ∗ (∃ f, arg10.view.loc (c : Thread nD τ) ↦[arg10.view.set]{fullShare} arg10.view.writes (Elt F) f LR)) -∗ K ⟨⟩))
          ⊢ wp frame (wpE (defs₀ (F := F)) Variants.none c none) E (cc0__knn_kernel i arg2 harg2 arg3 harg3 arg4 harg4 arg5 harg5 arg6 harg6 arg7 harg7 arg8 harg8 arg9 harg9 arg10 harg10) K } := by
  refine ⟨?_, ?_, fun xo xp E K => ?run⟩
  case run =>
    simp only [cc0__knn_kernel_eq_skeleton]; unfold cc0__knn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%dr, %fr, -, HR⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfp
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HP]; · iexact HP
    iexists _; iexact HR

end Cert.Kernel.Knn

end
-- ==== Proof.WordStepMid.lean ====
/-
  The body at a point of a middle column tile (neither 0 nor 7): it writes this column tile's slice of
  the posterior into the posterior scratch, adds the slice's row sums onto the row-sum scratch, and
  leaves the output block as it found it.
-/
import proofs.«101770_j38130719653974_1_alg».proof.Proof.WordStepFirst

set_option maxRecDepth 16384

noncomputable section

namespace Cert.Kernel.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the posterior scratch and in the row-sum scratch at a middle
    column tile, with the run: from the inputs' buffers at their contents, the output block at `xo`, the
    posterior scratch at `xp` and the row-sum scratch at `xr`, the body ends with the inputs and the output
    block as they were, the posterior scratch at `xp` overwritten by its pieces, the row-sum scratch by its. -/
noncomputable def stepMid (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (hc0 : ¬atFirstCol i) (hc1 : ¬atLastCol i)
    (x0 : Vec F S256x1024 .f32) (x1 : Vec F S256x1024 .f32) (x2 : Vec F S512x1024 .f32) (x3 : Vec F S512x1024 .f32) (x4 : Vec F S256x1 .f32) (x5 : Vec F S256x1 .f32) (xr : Vec F S256x1 .f32) :
    Σ' (LP : List (View.Piece (Elt F) S256x4096 .f32)), { LR : List (View.Piece (Elt F) S256x1 .f32) //
      ∀ (xo : Vec F S256x4096 .f32) (xp : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp ∗ owns (c : Thread nD τ) arg10 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (arg9.view.loc (c : Thread nD τ) ↦[arg9.view.set]{fullShare} arg9.view.writes (Elt F) (harg9.unread xp) LP) ∗ (∃ f, arg10.view.loc (c : Thread nD τ) ↦[arg10.view.set]{fullShare} arg10.view.writes (Elt F) f LR)) -∗ K ⟨⟩))
          ⊢ wp frame (wpE (defs₀ (F := F)) Variants.none c none) E (cc0__knn_kernel i arg2 harg2 arg3 harg3 arg4 harg4 arg5 harg5 arg6 harg6 arg7 harg7 arg8 harg8 arg9 harg9 arg10 harg10) K } := by
  refine ⟨?_, ?_, fun xo xp E K => ?run⟩
  case run =>
    simp only [cc0__knn_kernel_eq_skeleton]; unfold cc0__knn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%fr, %hfr, HR⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfp; obtain rfl := harg10.eq_unread hfr
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HP]; · iexact HP
    iexists _; iexact HR

end Cert.Kernel.Knn

end
-- ==== Proof.WordStepLast.lean ====
/-
  The body at a point of column tile 7: it writes the last slice of the posterior into the posterior
  scratch, adds the slice's row sums onto the row-sum scratch, and then divides the whole posterior
  scratch, row by row, by the row-sum scratch into the output block.
-/
import proofs.«101770_j38130719653974_1_alg».proof.Proof.WordStepMid

set_option maxRecDepth 16384

noncomputable section

namespace Cert.Kernel.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the two scratches at column tile 7,
    with the run: the output block may hold anything before (it is stored whole), the posterior scratch
    holds `xp` and the row-sum scratch `xr`. -/
noncomputable def stepLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (hc0 : ¬atFirstCol i) (hc1 : atLastCol i)
    (x0 : Vec F S256x1024 .f32) (x1 : Vec F S256x1024 .f32) (x2 : Vec F S512x1024 .f32) (x3 : Vec F S512x1024 .f32) (x4 : Vec F S256x1 .f32) (x5 : Vec F S256x1 .f32) (xp : Vec F S256x4096 .f32) (xr : Vec F S256x1 .f32) :
    Σ' (LO : List (View.Piece (Elt F) S256x4096 .f32)), Σ' (LP : List (View.Piece (Elt F) S256x4096 .f32)), { LR : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xp ∗ owns (c : Thread nD τ) arg10 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (arg9.view.loc (c : Thread nD τ) ↦[arg9.view.set]{fullShare} arg9.view.writes (Elt F) (harg9.unread xp) LP) ∗ (∃ f, arg10.view.loc (c : Thread nD τ) ↦[arg10.view.set]{fullShare} arg10.view.writes (Elt F) f LR)) -∗ K ⟨⟩))
          ⊢ wp frame (wpE (defs₀ (F := F)) Variants.none c none) E (cc0__knn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__knn_kernel_eq_skeleton]; unfold cc0__knn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fp, %hfp, HP⟩, ⟨%fr, %hfr, HR⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfp; obtain rfl := harg10.eq_unread hfr
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HP]; · iexact HP
    iexists _; iexact HR

end Cert.Kernel.Knn

end
-- ==== Proof.WordPieces.lean ====
/-
  What the body's stores leave, in closed form. At every point the body computes, from the six input
  blocks, one 256 x 512 slice of the unnormalised posterior and adds the slice's row sums onto a
  256 x 1 accumulator; the slice goes into the posterior scratch at the column offset of the point's
  column tile, over whatever the scratch held. Reading the scratch back at an index then gives the
  slice where the index's column lies in the slice, and the earlier contents elsewhere.
-/
import proofs.«101770_j38130719653974_1_alg».proof.Proof.WordStepLast
import Idealize.ShloMosaic.Lib.WritesUnit
import Idealize.ShloMosaic.Lib.Pipeline.Value

set_option maxRecDepth 16384

noncomputable section

namespace Cert.Kernel.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The slice of the unnormalised posterior a point computes from its six input blocks: target rgb and
    flow rows `x0`, `x1`, context rgb and flow rows `x2`, `x3`, the two weight columns `x4`, `x5`. -/
def slice (x0 x1 : Vec F S256x1024 .f32) (x2 x3 : Vec F S512x1024 .f32) (x4 x5 : Vec F S256x1 .f32) : Vec F S256x512 .f32 :=
  k0_pay12 (k0_pay6 x1 x3) (k0_pay7 x1) (k0_pay8 x3) (k0_pay9 x0 x2) (k0_pay10 x0 x2) x4 x5

/-- The row-sum accumulator after a point: the accumulator before it plus the row sums of the point's slice. -/
def rowAdd (prev : Vec F S256x1 .f32) (x0 x1 : Vec F S256x1024 .f32) (x2 x3 : Vec F S512x1024 .f32) (x4 x5 : Vec F S256x1 .f32) : Vec F S256x1 .f32 :=
  k0_pay1 (k0_pay13 (k0_pay6 x1 x3) (k0_pay7 x1) (k0_pay8 x3) (k0_pay9 x0 x2) (k0_pay10 x0 x2) x4 x5 prev)

/-- The accumulator's initial value: zeros. -/
def rowZero : Vec F S256x1 .f32 := k0_pay3 (F := F)

/-- The posterior scratch after a slice `sl` is stored at column offset `off` over contents `xp`. -/
def withSlice (M : Memref sig .tc .vmem S256x4096 .f32) (hM : M.IsWhole) (off : Fin 2 → ℕ) (inb : ∀ a, off a + S256x512.size a ≤ S256x4096.size a)
    (xp : Vec F S256x4096 .f32) (sl : Vec F S256x512 .f32) : Vec F S256x4096 .f32 :=
  M.view.read (Elt F) (M.view.writes (Elt F) (hM.unread xp) [⟨Rect.unit (s := S256x4096) off S256x512.size inb, sl⟩])

/-- Inside the stored columns the scratch reads the slice. -/
theorem withSlice_hit (M : Memref sig .tc .vmem S256x4096 .f32) (hM : M.IsWhole) (off : Fin 2 → ℕ) (inb : ∀ a, off a + S256x512.size a ≤ S256x4096.size a)
    (xp : Vec F S256x4096 .f32) (sl : Vec F S256x512 .f32) (o : ℕ) (hoff : off = ![0, o])
    (y : S256x4096.Idx) (x : S256x512.Idx) (h0 : (y 0).val = (x 0).val) (h1 : (y 1).val = o + (x 1).val) :
    withSlice M hM off inb xp sl y = sl x := by
  unfold withSlice
  exact View.read_writes_cons_unit_of_mem M.view (hM.unread xp) inb sl [] y x hoff
    (Fin.forall_fin_two.mpr ⟨by rw [h0]; exact (Nat.zero_add _).symm, h1⟩)

/-- Outside them it reads what it held before. -/
theorem withSlice_miss (M : Memref sig .tc .vmem S256x4096 .f32) (hM : M.IsWhole) (off : Fin 2 → ℕ) (inb : ∀ a, off a + S256x512.size a ≤ S256x4096.size a)
    (xp : Vec F S256x4096 .f32) (sl : Vec F S256x512 .f32) (o : ℕ) (hoff : off = ![0, o])
    (y : S256x4096.Idx) (h : (y 1).val < o ∨ o + 512 ≤ (y 1).val) :
    withSlice M hM off inb xp sl y = xp y := by
  unfold withSlice
  rw [View.read_writes_cons_unit_of_not_mem M.view (hM.unread xp) inb sl [] y hoff (1 : Fin 2) h, View.writes_nil, hM.read_unread]

section Pieces

variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (x0 : Vec F S256x1024 .f32) (x1 : Vec F S256x1024 .f32) (x2 : Vec F S512x1024 .f32) (x3 : Vec F S512x1024 .f32) (x4 : Vec F S256x1 .f32) (x5 : Vec F S256x1 .f32) (xp : Vec F S256x4096 .f32) (xr : Vec F S256x1 .f32)

theorem stepFirst_post (hc0 : atFirstCol i) (hc1 : ¬atLastCol i) :
    (stepFirst c i arg2 harg2 arg3 harg3 arg4 harg4 arg5 harg5 arg6 harg6 arg7 harg7 arg8 harg8 arg9 harg9 arg10 harg10 hc0 hc1 x0 x1 x2 x3 x4 x5).1
      = [⟨Rect.unit (s := S256x4096) (k0_off1 i) S256x512.size (k0_off1_inb i), slice x0 x1 x2 x3 x4 x5⟩] := by
  unfold stepFirst; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepFirst_rows (hc0 : atFirstCol i) (hc1 : ¬atLastCol i) :
    (stepFirst c i arg2 harg2 arg3 harg3 arg4 harg4 arg5 harg5 arg6 harg6 arg7 harg7 arg8 harg8 arg9 harg9 arg10 harg10 hc0 hc1 x0 x1 x2 x3 x4 x5).2.1
      = [⟨Rect.unit (s := S256x1) ![0, 0] S256x1.size inb_S256x1_S256x1_0_0, rowAdd rowZero x0 x1 x2 x3 x4 x5⟩,
         ⟨Rect.unit (s := S256x1) ![0, 0] S256x1.size inb_S256x1_S256x1_0_0, rowZero⟩] := by
  unfold stepFirst; dsimp only; sl_unfold_words
  rw [View.readCov_unit_zero (S := S256x1) _ hz]
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepMid_post (hc0 : ¬atFirstCol i) (hc1 : ¬atLastCol i) :
    (stepMid c i arg2 harg2 arg3 harg3 arg4 harg4 arg5 harg5 arg6 harg6 arg7 harg7 arg8 harg8 arg9 harg9 arg10 harg10 hc0 hc1 x0 x1 x2 x3 x4 x5 xr).1
      = [⟨Rect.unit (s := S256x4096) (k0_off1 i) S256x512.size (k0_off1_inb i), slice x0 x1 x2 x3 x4 x5⟩] := by
  unfold stepMid; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepMid_rows (hc0 : ¬atFirstCol i) (hc1 : ¬atLastCol i) :
    (stepMid c i arg2 harg2 arg3 harg3 arg4 harg4 arg5 harg5 arg6 harg6 arg7 harg7 arg8 harg8 arg9 harg9 arg10 harg10 hc0 hc1 x0 x1 x2 x3 x4 x5 xr).2.1
      = [⟨Rect.unit (s := S256x1) ![0, 0] S256x1.size inb_S256x1_S256x1_0_0, rowAdd xr x0 x1 x2 x3 x4 x5⟩] := by
  unfold stepMid; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepLast_post (hc0 : ¬atFirstCol i) (hc1 : atLastCol i) :
    (stepLast c i arg2 harg2 arg3 harg3 arg4 harg4 arg5 harg5 arg6 harg6 arg7 harg7 arg8 harg8 arg9 harg9 arg10 harg10 hc0 hc1 x0 x1 x2 x3 x4 x5 xp xr).2.1
      = [⟨Rect.unit (s := S256x4096) (k0_off1 i) S256x512.size (k0_off1_inb i), slice x0 x1 x2 x3 x4 x5⟩] := by
  unfold stepLast; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepLast_rows (hc0 : ¬atFirstCol i) (hc1 : atLastCol i) :
    (stepLast c i arg2 harg2 arg3 harg3 arg4 harg4 arg5 harg5 arg6 harg6 arg7 harg7 arg8 harg8 arg9 harg9 arg10 harg10 hc0 hc1 x0 x1 x2 x3 x4 x5 xp xr).2.2.1
      = [⟨Rect.unit (s := S256x1) ![0, 0] S256x1.size inb_S256x1_S256x1_0_0, rowAdd xr x0 x1 x2 x3 x4 x5⟩] := by
  unfold stepLast; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

/-- The output block the last column tile stores: the posterior scratch as the point leaves it, each
    row divided by the row-sum accumulator as the point leaves it. -/
theorem stepLast_out (hc0 : ¬atFirstCol i) (hc1 : atLastCol i) :
    (stepLast c i arg2 harg2 arg3 harg3 arg4 harg4 arg5 harg5 arg6 harg6 arg7 harg7 arg8 harg8 arg9 harg9 arg10 harg10 hc0 hc1 x0 x1 x2 x3 x4 x5 xp xr).1
      = [⟨Rect.unit (s := S256x4096) ![0, 0] S256x4096.size inb_S256x4096_S256x4096_0_0,
          k0_pay2 (withSlice arg9 harg9 (k0_off1 i) (k0_off1_inb i) xp (slice x0 x1 x2 x3 x4 x5)) (rowAdd xr x0 x1 x2 x3 x4 x5)⟩] := by
  unfold stepLast; dsimp only; sl_unfold_words
  rw [View.readCov_unit_zero (S := S256x1) _ hz]
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  simp only [View.ld_unit_zero (S := S256x4096) hz]
  rfl

end Pieces

end Cert.Kernel.Knn

end
-- ==== Proof.WordSpecs.lean ====
/-
  The three cases of the body, stated by the values they leave: the posterior scratch with the point's
  slice written over what it held, the row-sum accumulator advanced, and at column tile 7 the output
  block holding the posterior scratch divided row by row by the accumulator. The values are named by
  the caller (`xp'`, `xr'`, `xo'`) up to the stated equations.
-/
import proofs.«101770_j38130719653974_1_alg».proof.Proof.WordPieces

set_option maxRecDepth 16384

noncomputable section

namespace Cert.Kernel.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A store through the whole shape, made last, reads back as its payload. -/
theorem read_whole_cons {sg : RefSig} {κ : Kind} {sp : Space} {S : Shape} {e : EltTy} (v : View sg κ sp S e) (f : v.ty.Contents (Elt F))
    (off : Fin S.rank → ℕ) (hoff : off = fun _ => 0) (inb : ∀ a, off a + S.size a ≤ S.size a) (w : (Rect.unit off S.size inb).shape.Idx → Elt F e) (L : List (View.Piece (Elt F) S e)) :
    v.read (Elt F) (v.writes (Elt F) f ((⟨Rect.unit off S.size inb, w⟩ : View.Piece (Elt F) S e) :: L)) = w :=
  funext fun y => View.read_writes_cons_unit_of_mem v f inb w L y y hoff (fun a => (Nat.zero_add _).symm)

section Specs

variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (x0 : Vec F S256x1024 .f32) (x1 : Vec F S256x1024 .f32) (x2 : Vec F S512x1024 .f32) (x3 : Vec F S512x1024 .f32) (x4 : Vec F S256x1 .f32) (x5 : Vec F S256x1 .f32)

theorem stepFirst_spec (hc0 : atFirstCol i) (hc1 : ¬atLastCol i) (xo xp : Vec F S256x4096 .f32)
    (xp' : Vec F S256x4096 .f32) (hp : xp' = (withSlice arg9 harg9 (k0_off1 i) (k0_off1_inb i) xp (slice x0 x1 x2 x3 x4 x5))) (xr' : Vec F S256x1 .f32) (hr : xr' = rowAdd rowZero x0 x1 x2 x3 x4 x5)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp' ∗ owns (c : Thread nD τ) arg10 fullShare xr') -∗ K ⟨⟩))
      ⊢ wp frame (wpE (defs₀ (F := F)) Variants.none c none) E (cc0__knn_kernel i arg2 harg2 arg3 harg3 arg4 harg4 arg5 harg5 arg6 harg6 arg7 harg7 arg8 harg8 arg9 harg9 arg10 harg10) K := by
  subst hp; subst hr
  iintro ⟨H0, H1, H2, H3, H4, H5, H6, HP, HR, Hk⟩
  iapply ((stepFirst c i arg2 harg2 arg3 harg3 arg4 harg4 arg5 harg5 arg6 harg6 arg7 harg7 arg8 harg8 arg9 harg9 arg10 harg10 hc0 hc1 x0 x1 x2 x3 x4 x5).2.2 xo xp E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]; · iexact HP
  isplitl [HR]; · iexact HR
  iintro ⟨H0, H1, H2, H3, H4, H5, H6, HP, ⟨%f, HR⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]
  · unfold owns; iexists _; isplitr; swap; · iexact HP
    ipureintro; rw [stepFirst_post]; rfl
  unfold owns; iexists _; isplitr; swap; · iexact HR
  ipureintro; rw [stepFirst_rows]; exact read_whole_cons _ _ _ hz _ _ _

theorem stepMid_spec (hc0 : ¬atFirstCol i) (hc1 : ¬atLastCol i) (xr : Vec F S256x1 .f32) (xo xp : Vec F S256x4096 .f32)
    (xp' : Vec F S256x4096 .f32) (hp : xp' = (withSlice arg9 harg9 (k0_off1 i) (k0_off1_inb i) xp (slice x0 x1 x2 x3 x4 x5))) (xr' : Vec F S256x1 .f32) (hr : xr' = rowAdd xr x0 x1 x2 x3 x4 x5)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp ∗ owns (c : Thread nD τ) arg10 fullShare xr
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp' ∗ owns (c : Thread nD τ) arg10 fullShare xr') -∗ K ⟨⟩))
      ⊢ wp frame (wpE (defs₀ (F := F)) Variants.none c none) E (cc0__knn_kernel i arg2 harg2 arg3 harg3 arg4 harg4 arg5 harg5 arg6 harg6 arg7 harg7 arg8 harg8 arg9 harg9 arg10 harg10) K := by
  subst hp; subst hr
  iintro ⟨H0, H1, H2, H3, H4, H5, H6, HP, HR, Hk⟩
  iapply ((stepMid c i arg2 harg2 arg3 harg3 arg4 harg4 arg5 harg5 arg6 harg6 arg7 harg7 arg8 harg8 arg9 harg9 arg10 harg10 hc0 hc1 x0 x1 x2 x3 x4 x5 xr).2.2 xo xp E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]; · iexact HP
  isplitl [HR]; · iexact HR
  iintro ⟨H0, H1, H2, H3, H4, H5, H6, HP, ⟨%f, HR⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]
  · unfold owns; iexists _; isplitr; swap; · iexact HP
    ipureintro; rw [stepMid_post]; rfl
  unfold owns; iexists _; isplitr; swap; · iexact HR
  ipureintro; rw [stepMid_rows]; exact read_whole_cons _ _ _ hz _ _ _

theorem stepLast_spec (hc0 : ¬atFirstCol i) (hc1 : atLastCol i) (xr : Vec F S256x1 .f32) (xp : Vec F S256x4096 .f32)
    (xp' : Vec F S256x4096 .f32) (hp : xp' = (withSlice arg9 harg9 (k0_off1 i) (k0_off1_inb i) xp (slice x0 x1 x2 x3 x4 x5))) (xr' : Vec F S256x1 .f32) (hr : xr' = rowAdd xr x0 x1 x2 x3 x4 x5)
    (xo' : Vec F S256x4096 .f32) (ho : xo' = k0_pay2 xp' xr')
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xp ∗ owns (c : Thread nD τ) arg10 fullShare xr
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo' ∗ owns (c : Thread nD τ) arg9 fullShare xp' ∗ owns (c : Thread nD τ) arg10 fullShare xr') -∗ K ⟨⟩))
      ⊢ wp frame (wpE (defs₀ (F := F)) Variants.none c none) E (cc0__knn_kernel i arg2 harg2 arg3 harg3 arg4 harg4 arg5 harg5 arg6 harg6 arg7 harg7 arg8 harg8 arg9 harg9 arg10 harg10) K := by
  subst ho; subst hp; subst hr
  iintro ⟨H0, H1, H2, H3, H4, H5, H6, HP, HR, Hk⟩
  iapply ((stepLast c i arg2 harg2 arg3 harg3 arg4 harg4 arg5 harg5 arg6 harg6 arg7 harg7 arg8 harg8 arg9 harg9 arg10 harg10 hc0 hc1 x0 x1 x2 x3 x4 x5 xp xr).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]; · iexact HP
  isplitl [HR]; · iexact HR
  iintro ⟨H0, H1, H2, H3, H4, H5, ⟨%g, H6⟩, HP, ⟨%f, HR⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; rw [stepLast_out]; exact read_whole_cons _ _ _ hz _ _ _
  isplitl [HP]
  · unfold owns; iexists _; isplitr; swap; · iexact HP
    ipureintro; rw [stepLast_post]; rfl
  unfold owns; iexists _; isplitr; swap; · iexact HR
  ipureintro; rw [stepLast_rows]; exact read_whole_cons _ _ _ hz _ _ _

end Specs

end Cert.Kernel.Knn

end
-- ==== Proof.WordCarried.lean ====
/-
  What the two scratches hold from point to point. Point t is row tile t / 8, column tile t % 8. After
  point t the posterior scratch holds, in the columns of every column tile visited so far in t's row
  tile, the slice computed there; what the other columns hold (left by an earlier row tile, or by
  nothing) is never read before it is overwritten. The row-sum accumulator restarts from zero at
  column tile 0 and otherwise continues from the point before. At column tile 7 all eight slices of the
  row tile are in place, so the scratch is the whole 256 x 4096 posterior block of the row tile, and
  the output block is that block with each row divided by the accumulated row sum.
-/
import proofs.«101770_j38130719653974_1_alg».proof.Proof.WordSpecs
import Idealize.ShloMosaic.Lib.ValueIdx

set_option maxRecDepth 16384

noncomputable section

namespace Cert.Kernel.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The slice of the posterior computed at point `t`, from the point's six input blocks. -/
def sliceAt (c : Dev nD) (t : Fin cfg0.N) : Vec F S256x512 .f32 :=
  slice (iblk m c 0 t) (iblk m c 1 t) (iblk m c 2 t) (iblk m c 3 t) (iblk m c 4 t) (iblk m c 5 t)

/-- The accumulator after point `t` when it held `prev` before. -/
def rowStep (c : Dev nD) (prev : Vec F S256x1 .f32) (t : Fin cfg0.N) : Vec F S256x1 .f32 :=
  rowAdd prev (iblk m c 0 t) (iblk m c 1 t) (iblk m c 2 t) (iblk m c 3 t) (iblk m c 4 t) (iblk m c 5 t)

/-- The row-sum accumulator after point `n`: restarted from zero at column tile 0. -/
def rowsAt (c : Dev nD) : (n : ℕ) → n < cfg0.N → Vec F S256x1 .f32
  | 0, h => rowStep m c rowZero ⟨0, h⟩
  | n + 1, h => rowStep m c (if (n + 1) % 8 = 0 then rowZero else rowsAt c n (Nat.lt_of_succ_lt h)) ⟨n + 1, h⟩

theorem rowsAt_first (c : Dev nD) (t : Fin cfg0.N) (h : t.val % 8 = 0) :
    rowsAt m c t.val t.isLt = rowStep m c rowZero t := by
  obtain ⟨n, hn⟩ := t
  cases n with
  | zero => rfl
  | succ n =>
    show rowStep m c (if (n + 1) % 8 = 0 then rowZero else rowsAt m c n (Nat.lt_of_succ_lt hn)) ⟨n + 1, hn⟩ = _
    rw [if_pos h]

theorem rowsAt_next (c : Dev nD) (t : Fin cfg0.N) (h : ¬ t.val % 8 = 0) :
    rowsAt m c t.val t.isLt = rowStep m c (rowsAt m c (t.val - 1) (Nat.lt_of_le_of_lt (Nat.sub_le _ _) t.isLt)) t := by
  obtain ⟨n, hn⟩ := t
  cases n with
  | zero => exact absurd (Nat.zero_mod _) h
  | succ n =>
    show rowStep m c (if (n + 1) % 8 = 0 then rowZero else rowsAt m c n (Nat.lt_of_succ_lt hn)) ⟨n + 1, hn⟩ = _
    rw [if_neg h]; rfl

/-- The whole posterior block of the row tile of point `t`: column `j` is column `j % 512` of the slice
    computed at column tile `j / 512` of that row tile. -/
def postOf (c : Dev nD) (t : Fin cfg0.N) : Vec F S256x4096 .f32 := fun y =>
  sliceAt m c ⟨8 * (t.val / 8) + (y 1).val / 512, by
      have h1 := ValueIdx.idx2_lt1 y
      have h2 : t.val < 128 := lt_of_lt_of_eq t.isLt (show cfg0.N = 128 from N_0)
      have h3 : cfg0.N = 128 := N_0
      omega⟩
    (ValueIdx.ix2 (y 0) ⟨(y 1).val % 512, Nat.mod_lt _ (by decide)⟩)

/-- The output block stored at a point of column tile 7. -/
def outAt (c : Dev nD) (t : Fin cfg0.N) : Vec F S256x4096 .f32 :=
  k0_pay2 (postOf m c t) (rowsAt m c t.val t.isLt)

/-- What is known of the posterior scratch before point `n`: for every earlier point of the row tile
    of point `n - 1`, its slice's columns hold its slice. -/
def SlicesIn (c : Dev nD) (n : ℕ) (X : Vec F S256x4096 .f32) : Prop :=
  ∀ t' : Fin cfg0.N, t'.val < n → t'.val / 8 = (n - 1) / 8 →
    ∀ (x : S256x512.Idx) (y : S256x4096.Idx), (y 0).val = (x 0).val → (y 1).val = 512 * (t'.val % 8) + (x 1).val →
      X y = sliceAt m c t' x

/-- Storing point `t`'s slice keeps the earlier slices of the row tile and adds this one. -/
theorem slicesIn_step (c : Dev nD) (t : Fin cfg0.N) (M : Memref sig .tc .vmem S256x4096 .f32) (hM : M.IsWhole)
    (xp : Vec F S256x4096 .f32) (h : t.val % 8 = 0 ∨ SlicesIn m c t.val xp) :
    SlicesIn m c (t.val + 1) (withSlice M hM (k0_off1 (grid0.coords t)) (k0_off1_inb (grid0.coords t)) xp (sliceAt m c t)) := by
  intro t' ht' hq x y h0 h1
  have hx := ValueIdx.idx2_lt1 x
  rw [Nat.add_sub_cancel] at hq
  by_cases he : t'.val = t.val
  · obtain rfl : t' = t := Fin.ext he
    exact withSlice_hit M hM _ _ xp _ (512 * (t'.val % 8)) (sliceOff_eq t') y x h0 h1
  · have hlt : t'.val < t.val := by omega
    rw [withSlice_miss M hM _ _ xp _ (512 * (t.val % 8)) (sliceOff_eq t) y (by omega)]
    rcases h with h | h
    · exfalso; omega
    · exact h t' hlt (by omega) x y h0 h1

/-- At column tile 7 the eight slices are all in place: the scratch is the row tile's posterior block. -/
theorem slicesIn_full (c : Dev nD) (t : Fin cfg0.N) (h7 : t.val % 8 = 7) (X : Vec F S256x4096 .f32)
    (hX : SlicesIn m c (t.val + 1) X) : X = postOf m c t := by
  funext y
  have hy := ValueIdx.idx2_lt1 y
  have hN : t.val < 128 := lt_of_lt_of_eq t.isLt (show cfg0.N = 128 from N_0)
  unfold postOf
  refine hX _ ?_ ?_ _ y rfl ?_
  · show 8 * (t.val / 8) + (y 1).val / 512 < t.val + 1
    omega
  · show (8 * (t.val / 8) + (y 1).val / 512) / 8 = (t.val + 1 - 1) / 8
    omega
  · show (y 1).val = 512 * ((8 * (t.val / 8) + (y 1).val / 512) % 8) + (y 1).val % 512
    omega

/-- The region invariant before point `n`: the posterior scratch at some contents with the slices of the
    current row tile in place (nothing known at column tile 0), the accumulator at the fold up to the
    point before (anything before the first point), the generator register at some state. -/
def carried (c : Dev nD) (n : ℕ) (hn : n ≤ cfg0.N) : sProp 𝕄 :=
  iprop(iprop((∃ X, ⌜n % 8 = 0 ∨ SlicesIn m c n X⌝ ∗ owns (c : Thread nD τ) postM fullShare X)
      ∗ (∃ R, ⌜∀ h : n ≠ 0, R = rowsAt m c (n - 1) (Nat.lt_of_lt_of_le (Nat.sub_lt (Nat.pos_of_ne_zero h) Nat.one_pos) hn)⌝ ∗ owns (c : Thread nD τ) sumM fullShare R))
    ∗ (∃ r, prngReg c r))

/-- The proof data: the arrays as the region finds them; after the body the inputs' buffers at their
    blocks and the output's at `outAt` (read only where the block is written back: column tile 7). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.Kernel.Knn

end
-- ==== Proof.WordBody.lean ====
/-
  The body obligation at a generic point, by the point's column tile: at tile 0 the accumulator is
  restarted, at tiles 1 to 6 it continues, at tile 7 the output block is stored as well; in each case
  the invariant is handed to the next point with this point's slice added and the accumulator advanced.
  Then the run of the whole program and the frame.
-/
import proofs.«101770_j38130719653974_1_alg».proof.Proof.WordCarried

set_option maxRecDepth 16384

noncomputable section

namespace Cert.Kernel.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem noflush6 (t : Fin cfg0.N) (h7 : ¬ t.val % 8 = 7) : (cfg0.win 6).flush t = false :=
  Bool.eq_false_iff.mpr fun h => h7 ((flush0_6 t).mp h)

theorem live6 (t : Fin cfg0.N) (h7 : t.val % 8 = 7) : cfg0.idle 6 (grid0.coords t) = false :=
  Bool.eq_false_iff.mpr fun h => (idle6_iff t).mp h h7

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = carried m c (t.val + 1) t.isLt from rfl, carried_castSucc m c t]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  unfold carried
  have hN : t.val < 128 := lt_of_lt_of_eq t.isLt (show cfg0.N = 128 from N_0)
  by_cases h0 : t.val % 8 = 0
  · have h7 : ¬ t.val % 8 = 7 := by omega
    rw [Dat.leavesExact_idle (dats m 0 c) 6 t ((idle6_iff t).mpr h7) (noflush6 t h7)]
    iintro ⟨⟨⟨⟨%X, %hX, HP⟩, ⟨%R, %hR, HR⟩⟩, Hg⟩, Ho, ⟨%d0, H0⟩, ⟨%d1, H1⟩, ⟨%d2, H2⟩, ⟨%d3, H3⟩, ⟨%d4, H4⟩, ⟨%d5, H5⟩, ⟨%d6, H6⟩⟩
    iapply (stepFirst_spec c (grid0.coords t) (ms0 t) (hs0 t) (ms1 t) (hs1 t) (ms2 t) (hs2 t) (ms3 t) (hs3 t) (ms4 t) (hs4 t) (ms5 t) (hs5 t) (ms6 t) (hs6 t) postM (Memref.isWhole_whole _) sumM (Memref.isWhole_whole _) (iblk m c 0 t) (iblk m c 1 t) (iblk m c 2 t) (iblk m c 3 t) (iblk m c 4 t) (iblk m c 5 t)
      ((atFirstCol_iff t).mpr h0) (fun h => h7 ((atLastCol_iff t).mp h)) ((dats m 0 c).before 6 t d6) X
      (withSlice postM (Memref.isWhole_whole _) (k0_off1 (grid0.coords t)) (k0_off1_inb (grid0.coords t)) X (sliceAt m c t)) rfl
      (rowsAt m c t.val t.isLt) (rowsAt_first m c t h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HP]; · iexact HP
    isplitl [HR]; · iexists _; iexact HR
    iintro ⟨H0, H1, H2, H3, H4, H5, H6, HP, HR⟩
    isplitl [HP HR Hg]
    · isplitl [HP HR]
      · isplitl [HP]
        · iexists _; isplitr; swap; · iexact HP
          ipureintro; exact Or.inr (slicesIn_step m c t postM (Memref.isWhole_whole _) X hX)
        iexists _; isplitr; swap; · iexact HR
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hne : t.val ≠ 0 := fun h => h0 (by rw [h])
    by_cases h7 : t.val % 8 = 7
    · rw [show (dats m 0 c).leavesExact 6 t = owns (c : Thread nD τ) (ms6 t) fullShare ((dats m 0 c).after 6 t) from by
        unfold Dat.leavesExact; rw [live6 t h7], after6]
      iintro ⟨⟨⟨⟨%X, %hX, HP⟩, ⟨%R, %hR, HR⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl := hR hne
      iapply (stepLast_spec c (grid0.coords t) (ms0 t) (hs0 t) (ms1 t) (hs1 t) (ms2 t) (hs2 t) (ms3 t) (hs3 t) (ms4 t) (hs4 t) (ms5 t) (hs5 t) (ms6 t) (hs6 t) postM (Memref.isWhole_whole _) sumM (Memref.isWhole_whole _) (iblk m c 0 t) (iblk m c 1 t) (iblk m c 2 t) (iblk m c 3 t) (iblk m c 4 t) (iblk m c 5 t)
        (fun h => h0 ((atFirstCol_iff t).mp h)) ((atLastCol_iff t).mpr h7) _ X
        (withSlice postM (Memref.isWhole_whole _) (k0_off1 (grid0.coords t)) (k0_off1_inb (grid0.coords t)) X (sliceAt m c t)) rfl
        (rowsAt m c t.val t.isLt) (rowsAt_next m c t h0)
        (outAt m c t) (by
          unfold outAt
          rw [← slicesIn_full m c t h7 _ (slicesIn_step m c t postM (Memref.isWhole_whole _) X hX)]) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HP]; · iexact HP
      isplitl [HR]; · iexact HR
      iintro ⟨H0, H1, H2, H3, H4, H5, H6, HP, HR⟩
      isplitl [HP HR Hg]
      · isplitl [HP HR]
        · isplitl [HP]
          · iexists _; isplitr; swap; · iexact HP
            ipureintro; exact Or.inr (slicesIn_step m c t postM (Memref.isWhole_whole _) X hX)
          iexists _; isplitr; swap; · iexact HR
          ipureintro; exact fun _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t ((idle6_iff t).mpr h7) (noflush6 t h7)]
      iintro ⟨⟨⟨⟨%X, %hX, HP⟩, ⟨%R, %hR, HR⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl := hR hne
      iapply (stepMid_spec c (grid0.coords t) (ms0 t) (hs0 t) (ms1 t) (hs1 t) (ms2 t) (hs2 t) (ms3 t) (hs3 t) (ms4 t) (hs4 t) (ms5 t) (hs5 t) (ms6 t) (hs6 t) postM (Memref.isWhole_whole _) sumM (Memref.isWhole_whole _) (iblk m c 0 t) (iblk m c 1 t) (iblk m c 2 t) (iblk m c 3 t) (iblk m c 4 t) (iblk m c 5 t)
        (fun h => h0 ((atFirstCol_iff t).mp h)) (fun h => h7 ((atLastCol_iff t).mp h)) _ ((dats m 0 c).before 6 t d6) X
        (withSlice postM (Memref.isWhole_whole _) (k0_off1 (grid0.coords t)) (k0_off1_inb (grid0.coords t)) X (sliceAt m c t)) rfl
        (rowsAt m c t.val t.isLt) (rowsAt_next m c t h0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HP]; · iexact HP
      isplitl [HR]; · iexact HR
      iintro ⟨H0, H1, H2, H3, H4, H5, H6, HP, HR⟩
      isplitl [HP HR Hg]
      · isplitl [HP HR]
        · isplitl [HP]
          · iexists _; isplitr; swap; · iexact HP
            ipureintro; exact Or.inr (slicesIn_step m c t postM (Memref.isWhole_whole _) X hX)
          iexists _; isplitr; swap; · iexact HR
          ipureintro; exact fun _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, entryInv_eq]
  unfold carried
  iintro ⟨⟨⟨%X, HP⟩, ⟨%R, HR⟩⟩, Hg⟩
  isplitl [HP HR]
  · isplitl [HP]
    · iexists X; isplitr
      · ipureintro; exact Or.inl (Nat.zero_mod _)
      iexact HP
    iexists R; isplitr
    · ipureintro; exact fun h => absurd rfl h
    iexact HR
  iexact Hg

/-- After the last point the invariant gives the scratches back at some contents. -/
theorem hout (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl, entryInv_eq]
  unfold carried
  iintro ⟨⟨⟨%X, -, HP⟩, ⟨%R, -, HR⟩⟩, Hg⟩
  isplitl [HP HR]
  · isplitl [HP]
    · iexists _; iexact HP
    iexists _; iexact HR
  iexact Hg

set_option backward.isDefEq.respectTransparency.types false in
/-- Every weakly fair execution of the program terminates, each windowed array at what the proof data
    computes, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Knn

end
-- ==== Proof.IdealCases.lean ====
/-
  The grid is 16 row tiles by 8 column tiles, visited row tile by row tile: point t is row tile t / 8 and
  column tile t % 8. The body branches twice on the column tile alone: at column tile 0 it zeroes the
  row-sum scratch, at column tile 7 it divides the posterior scratch by the row sums into the output
  block. Here: the two conditions in closed form over the grid, the points where the output window is
  left untouched, and the memrefs the body is called with.
-/
import proofs.«101770_j38130719653974_1_alg».proof.Proof.Gen.KernelIdeal.Frame
import proofs.«101770_j38130719653974_1_alg».proof.Proof.Gen.KernelIdeal.Skeleton

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions -/

/-- The body's first branch: the column tile is 0. -/
abbrev atFirstCol (i : grid0.Coords) : Prop :=
  (Scalar.cmpi .ne (Scalar.extui (Scalar.cmpi .eq (BitVec.ofNat 32 (i 1).val) 0#32)) 0#32) = 1#1

/-- The column tile is 0 exactly at the points that are multiples of 8. -/
theorem atFirstCol_iff : ∀ t : Fin cfg0.N, atFirstCol (grid0.coords t) ↔ t.val % 8 = 0 :=
  (by decide +kernel : ∀ t : Fin grid0.N, atFirstCol (grid0.coords t) ↔ t.val % 8 = 0)

/-- The body's second branch: the column tile is 7. -/
abbrev atLastCol (i : grid0.Coords) : Prop := k0_cond2 i = 1#1

/-- The column tile is 7 exactly at the points congruent to 7 modulo 8. -/
theorem atLastCol_iff : ∀ t : Fin cfg0.N, atLastCol (grid0.coords t) ↔ t.val % 8 = 7 :=
  (by decide +kernel : ∀ t : Fin grid0.N, atLastCol (grid0.coords t) ↔ t.val % 8 = 7)

/-- The column offset of the slice of the posterior scratch stored at a point: 512 times the column tile. -/
theorem sliceOff_eq : ∀ t : Fin cfg0.N, k0_off1 (grid0.coords t) = ![0, 512 * (t.val % 8)] :=
  (by decide +kernel : ∀ t : Fin grid0.N, k0_off1 (grid0.coords t) = ![0, 512 * (t.val % 8)])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly away from column tile 7. -/
theorem idle6_iff : ∀ t : Fin cfg0.N, cfg0.idle 6 (grid0.coords t) = true ↔ ¬ t.val % 8 = 7 :=
  (by decide +kernel : ∀ t : Fin grid0.N, cfg0.idle 6 (grid0.coords t) = true ↔ ¬ t.val % 8 = 7)

/-! ## The memrefs the body is called with -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x4096 .f32 := win0_6.stage (cfg0.slots t 6)
abbrev hs6 (t : Fin cfg0.N) : (ms6 t).IsWhole := hstage0_6 ((cfg0.slots t 6).cast nbuf0_6)
/-- The posterior scratch (256 rows, all 4096 columns of one row tile) and the row-sum scratch. -/
abbrev postM : Memref sig .tc .vmem S256x4096 .f32 := Memref.whole cc0_scratch0
abbrev sumM : Memref sig .tc .vmem S256x1 .f32 := Memref.whole cc0_scratch1

/-- What the launch hands the region beside the windows: both scratches at some contents, and the
    generator register at some state. -/
theorem entryInv_eq (c : Dev nD) :
    (Pipeline.ΦA spec0 c : sProp 𝕄)
      = iprop(iprop((∃ d, owns (c : Thread nD τ) postM fullShare d) ∗ (∃ d, owns (c : Thread nD τ) sumM fullShare d)) ∗ (∃ r, prngReg c r)) := by
  unfold Pipeline.ΦA; rw [scopedRest0_eq]; simp only [postM, sumM, owns_whole]; try rfl

end Cert.KernelIdeal.Knn

end
-- ==== Proof.IdealStepFirst.lean ====
/-
  The body at a point of column tile 0: it zeroes the row-sum scratch, writes the first slice of the
  posterior into the posterior scratch, stores the slice's row sums, and leaves the output block as it
  found it.
-/
import proofs.«101770_j38130719653974_1_alg».proof.Proof.IdealCases

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the two scratches at column tile 0, with the run: the row-sum
    scratch may hold anything before (it is zeroed first), the posterior scratch holds `xp` and ends at
    `xp` overwritten by its pieces, the output block `xo` is handed back untouched. -/
noncomputable def stepFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (hc0 : atFirstCol i) (hc1 : ¬atLastCol i)
    (x0 : Vec F S256x1024 .f32) (x1 : Vec F S256x1024 .f32) (x2 : Vec F S512x1024 .f32) (x3 : Vec F S512x1024 .f32) (x4 : Vec F S256x1 .f32) (x5 : Vec F S256x1 .f32) :
    Σ' (LP : List (View.Piece (Elt F) S256x4096 .f32)), { LR : List (View.Piece (Elt F) S256x1 .f32) //
      ∀ (xo : Vec F S256x4096 .f32) (xp : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (arg9.view.loc (c : Thread nD τ) ↦[arg9.view.set]{fullShare} arg9.view.writes (Elt F) (harg9.unread xp) LP) ∗ (∃ f, arg10.view.loc (c : Thread nD τ) ↦[arg10.view.set]{fullShare} arg10.view.writes (Elt F) f LR)) -∗ K ⟨⟩))
          ⊢ wp frame (wpE (defs₀ (F := F)) Variants.none c none) E (cc0__knn_kernel i arg2 harg2 arg3 harg3 arg4 harg4 arg5 harg5 arg6 harg6 arg7 harg7 arg8 harg8 arg9 harg9 arg10 harg10) K } := by
  refine ⟨?_, ?_, fun xo xp E K => ?run⟩
  case run =>
    simp only [cc0__knn_kernel_eq_skeleton]; unfold cc0__knn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%dr, %fr, -, HR⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfp
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HP]; · iexact HP
    iexists _; iexact HR

end Cert.KernelIdeal.Knn

end
-- ==== Proof.IdealStepMid.lean ====
/-
  The body at a point of a middle column tile (neither 0 nor 7): it writes this column tile's slice of
  the posterior into the posterior scratch, adds the slice's row sums onto the row-sum scratch, and
  leaves the output block as it found it.
-/
import proofs.«101770_j38130719653974_1_alg».proof.Proof.IdealStepFirst

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the posterior scratch and in the row-sum scratch at a middle
    column tile, with the run: from the inputs' buffers at their contents, the output block at `xo`, the
    posterior scratch at `xp` and the row-sum scratch at `xr`, the body ends with the inputs and the output
    block as they were, the posterior scratch at `xp` overwritten by its pieces, the row-sum scratch by its. -/
noncomputable def stepMid (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (hc0 : ¬atFirstCol i) (hc1 : ¬atLastCol i)
    (x0 : Vec F S256x1024 .f32) (x1 : Vec F S256x1024 .f32) (x2 : Vec F S512x1024 .f32) (x3 : Vec F S512x1024 .f32) (x4 : Vec F S256x1 .f32) (x5 : Vec F S256x1 .f32) (xr : Vec F S256x1 .f32) :
    Σ' (LP : List (View.Piece (Elt F) S256x4096 .f32)), { LR : List (View.Piece (Elt F) S256x1 .f32) //
      ∀ (xo : Vec F S256x4096 .f32) (xp : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp ∗ owns (c : Thread nD τ) arg10 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (arg9.view.loc (c : Thread nD τ) ↦[arg9.view.set]{fullShare} arg9.view.writes (Elt F) (harg9.unread xp) LP) ∗ (∃ f, arg10.view.loc (c : Thread nD τ) ↦[arg10.view.set]{fullShare} arg10.view.writes (Elt F) f LR)) -∗ K ⟨⟩))
          ⊢ wp frame (wpE (defs₀ (F := F)) Variants.none c none) E (cc0__knn_kernel i arg2 harg2 arg3 harg3 arg4 harg4 arg5 harg5 arg6 harg6 arg7 harg7 arg8 harg8 arg9 harg9 arg10 harg10) K } := by
  refine ⟨?_, ?_, fun xo xp E K => ?run⟩
  case run =>
    simp only [cc0__knn_kernel_eq_skeleton]; unfold cc0__knn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fp, %hfp, HP⟩, ⟨%fr, %hfr, HR⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfp; obtain rfl := harg10.eq_unread hfr
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HP]; · iexact HP
    iexists _; iexact HR

end Cert.KernelIdeal.Knn

end
-- ==== Proof.IdealStepLast.lean ====
/-
  The body at a point of column tile 7: it writes the last slice of the posterior into the posterior
  scratch, adds the slice's row sums onto the row-sum scratch, and then divides the whole posterior
  scratch, row by row, by the row-sum scratch into the output block.
-/
import proofs.«101770_j38130719653974_1_alg».proof.Proof.IdealStepMid

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output block and in the two scratches at column tile 7,
    with the run: the output block may hold anything before (it is stored whole), the posterior scratch
    holds `xp` and the row-sum scratch `xr`. -/
noncomputable def stepLast (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (hc0 : ¬atFirstCol i) (hc1 : atLastCol i)
    (x0 : Vec F S256x1024 .f32) (x1 : Vec F S256x1024 .f32) (x2 : Vec F S512x1024 .f32) (x3 : Vec F S512x1024 .f32) (x4 : Vec F S256x1 .f32) (x5 : Vec F S256x1 .f32) (xp : Vec F S256x4096 .f32) (xr : Vec F S256x1 .f32) :
    Σ' (LO : List (View.Piece (Elt F) S256x4096 .f32)), Σ' (LP : List (View.Piece (Elt F) S256x4096 .f32)), { LR : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xp ∗ owns (c : Thread nD τ) arg10 fullShare xr
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (arg9.view.loc (c : Thread nD τ) ↦[arg9.view.set]{fullShare} arg9.view.writes (Elt F) (harg9.unread xp) LP) ∗ (∃ f, arg10.view.loc (c : Thread nD τ) ↦[arg10.view.set]{fullShare} arg10.view.writes (Elt F) f LR)) -∗ K ⟨⟩))
          ⊢ wp frame (wpE (defs₀ (F := F)) Variants.none c none) E (cc0__knn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__knn_kernel_eq_skeleton]; unfold cc0__knn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fp, %hfp, HP⟩, ⟨%fr, %hfr, HR⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfp; obtain rfl := harg10.eq_unread hfr
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HP]; · iexact HP
    iexists _; iexact HR

end Cert.KernelIdeal.Knn

end
-- ==== Proof.IdealPieces.lean ====
/-
  What the body's stores leave, in closed form. At every point the body computes, from the six input
  blocks, one 256 x 512 slice of the unnormalised posterior and adds the slice's row sums onto a
  256 x 1 accumulator; the slice goes into the posterior scratch at the column offset of the point's
  column tile, over whatever the scratch held. Reading the scratch back at an index then gives the
  slice where the index's column lies in the slice, and the earlier contents elsewhere.
-/
import proofs.«101770_j38130719653974_1_alg».proof.Proof.IdealStepLast
import Idealize.ShloMosaic.Lib.WritesUnit
import Idealize.ShloMosaic.Lib.Pipeline.Value

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The slice of the unnormalised posterior a point computes from its six input blocks: target rgb and
    flow rows `x0`, `x1`, context rgb and flow rows `x2`, `x3`, the two weight columns `x4`, `x5`. -/
def slice (x0 x1 : Vec F S256x1024 .f32) (x2 x3 : Vec F S512x1024 .f32) (x4 x5 : Vec F S256x1 .f32) : Vec F S256x512 .f32 :=
  k0_pay12 (k0_pay6 x1 x3) (k0_pay7 x1) (k0_pay8 x3) (k0_pay9 x0 x2) (k0_pay10 x0 x2) x4 x5

/-- The row-sum accumulator after a point: the accumulator before it plus the row sums of the point's slice. -/
def rowAdd (prev : Vec F S256x1 .f32) (x0 x1 : Vec F S256x1024 .f32) (x2 x3 : Vec F S512x1024 .f32) (x4 x5 : Vec F S256x1 .f32) : Vec F S256x1 .f32 :=
  k0_pay1 (k0_pay13 (k0_pay6 x1 x3) (k0_pay7 x1) (k0_pay8 x3) (k0_pay9 x0 x2) (k0_pay10 x0 x2) x4 x5 prev)

/-- The accumulator's initial value: zeros. -/
def rowZero : Vec F S256x1 .f32 := k0_pay3 (F := F)

/-- The posterior scratch after a slice `sl` is stored at column offset `off` over contents `xp`. -/
def withSlice (M : Memref sig .tc .vmem S256x4096 .f32) (hM : M.IsWhole) (off : Fin 2 → ℕ) (inb : ∀ a, off a + S256x512.size a ≤ S256x4096.size a)
    (xp : Vec F S256x4096 .f32) (sl : Vec F S256x512 .f32) : Vec F S256x4096 .f32 :=
  M.view.read (Elt F) (M.view.writes (Elt F) (hM.unread xp) [⟨Rect.unit (s := S256x4096) off S256x512.size inb, sl⟩])

/-- Inside the stored columns the scratch reads the slice. -/
theorem withSlice_hit (M : Memref sig .tc .vmem S256x4096 .f32) (hM : M.IsWhole) (off : Fin 2 → ℕ) (inb : ∀ a, off a + S256x512.size a ≤ S256x4096.size a)
    (xp : Vec F S256x4096 .f32) (sl : Vec F S256x512 .f32) (o : ℕ) (hoff : off = ![0, o])
    (y : S256x4096.Idx) (x : S256x512.Idx) (h0 : (y 0).val = (x 0).val) (h1 : (y 1).val = o + (x 1).val) :
    withSlice M hM off inb xp sl y = sl x := by
  unfold withSlice
  exact View.read_writes_cons_unit_of_mem M.view (hM.unread xp) inb sl [] y x hoff
    (Fin.forall_fin_two.mpr ⟨by rw [h0]; exact (Nat.zero_add _).symm, h1⟩)

/-- Outside them it reads what it held before. -/
theorem withSlice_miss (M : Memref sig .tc .vmem S256x4096 .f32) (hM : M.IsWhole) (off : Fin 2 → ℕ) (inb : ∀ a, off a + S256x512.size a ≤ S256x4096.size a)
    (xp : Vec F S256x4096 .f32) (sl : Vec F S256x512 .f32) (o : ℕ) (hoff : off = ![0, o])
    (y : S256x4096.Idx) (h : (y 1).val < o ∨ o + 512 ≤ (y 1).val) :
    withSlice M hM off inb xp sl y = xp y := by
  unfold withSlice
  rw [View.read_writes_cons_unit_of_not_mem M.view (hM.unread xp) inb sl [] y hoff (1 : Fin 2) h, View.writes_nil, hM.read_unread]

section Pieces

variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (x0 : Vec F S256x1024 .f32) (x1 : Vec F S256x1024 .f32) (x2 : Vec F S512x1024 .f32) (x3 : Vec F S512x1024 .f32) (x4 : Vec F S256x1 .f32) (x5 : Vec F S256x1 .f32) (xp : Vec F S256x4096 .f32) (xr : Vec F S256x1 .f32)

theorem stepFirst_post (hc0 : atFirstCol i) (hc1 : ¬atLastCol i) :
    (stepFirst c i arg2 harg2 arg3 harg3 arg4 harg4 arg5 harg5 arg6 harg6 arg7 harg7 arg8 harg8 arg9 harg9 arg10 harg10 hc0 hc1 x0 x1 x2 x3 x4 x5).1
      = [⟨Rect.unit (s := S256x4096) (k0_off1 i) S256x512.size (k0_off1_inb i), slice x0 x1 x2 x3 x4 x5⟩] := by
  unfold stepFirst; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepFirst_rows (hc0 : atFirstCol i) (hc1 : ¬atLastCol i) :
    (stepFirst c i arg2 harg2 arg3 harg3 arg4 harg4 arg5 harg5 arg6 harg6 arg7 harg7 arg8 harg8 arg9 harg9 arg10 harg10 hc0 hc1 x0 x1 x2 x3 x4 x5).2.1
      = [⟨Rect.unit (s := S256x1) ![0, 0] S256x1.size inb_S256x1_S256x1_0_0, rowAdd rowZero x0 x1 x2 x3 x4 x5⟩,
         ⟨Rect.unit (s := S256x1) ![0, 0] S256x1.size inb_S256x1_S256x1_0_0, rowZero⟩] := by
  unfold stepFirst; dsimp only; sl_unfold_words
  rw [View.readCov_unit_zero (S := S256x1) _ hz]
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepMid_post (hc0 : ¬atFirstCol i) (hc1 : ¬atLastCol i) :
    (stepMid c i arg2 harg2 arg3 harg3 arg4 harg4 arg5 harg5 arg6 harg6 arg7 harg7 arg8 harg8 arg9 harg9 arg10 harg10 hc0 hc1 x0 x1 x2 x3 x4 x5 xr).1
      = [⟨Rect.unit (s := S256x4096) (k0_off1 i) S256x512.size (k0_off1_inb i), slice x0 x1 x2 x3 x4 x5⟩] := by
  unfold stepMid; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepMid_rows (hc0 : ¬atFirstCol i) (hc1 : ¬atLastCol i) :
    (stepMid c i arg2 harg2 arg3 harg3 arg4 harg4 arg5 harg5 arg6 harg6 arg7 harg7 arg8 harg8 arg9 harg9 arg10 harg10 hc0 hc1 x0 x1 x2 x3 x4 x5 xr).2.1
      = [⟨Rect.unit (s := S256x1) ![0, 0] S256x1.size inb_S256x1_S256x1_0_0, rowAdd xr x0 x1 x2 x3 x4 x5⟩] := by
  unfold stepMid; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepLast_post (hc0 : ¬atFirstCol i) (hc1 : atLastCol i) :
    (stepLast c i arg2 harg2 arg3 harg3 arg4 harg4 arg5 harg5 arg6 harg6 arg7 harg7 arg8 harg8 arg9 harg9 arg10 harg10 hc0 hc1 x0 x1 x2 x3 x4 x5 xp xr).2.1
      = [⟨Rect.unit (s := S256x4096) (k0_off1 i) S256x512.size (k0_off1_inb i), slice x0 x1 x2 x3 x4 x5⟩] := by
  unfold stepLast; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

theorem stepLast_rows (hc0 : ¬atFirstCol i) (hc1 : atLastCol i) :
    (stepLast c i arg2 harg2 arg3 harg3 arg4 harg4 arg5 harg5 arg6 harg6 arg7 harg7 arg8 harg8 arg9 harg9 arg10 harg10 hc0 hc1 x0 x1 x2 x3 x4 x5 xp xr).2.2.1
      = [⟨Rect.unit (s := S256x1) ![0, 0] S256x1.size inb_S256x1_S256x1_0_0, rowAdd xr x0 x1 x2 x3 x4 x5⟩] := by
  unfold stepLast; dsimp only; sl_unfold_words
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  rfl

/-- The output block the last column tile stores: the posterior scratch as the point leaves it, each
    row divided by the row-sum accumulator as the point leaves it. -/
theorem stepLast_out (hc0 : ¬atFirstCol i) (hc1 : atLastCol i) :
    (stepLast c i arg2 harg2 arg3 harg3 arg4 harg4 arg5 harg5 arg6 harg6 arg7 harg7 arg8 harg8 arg9 harg9 arg10 harg10 hc0 hc1 x0 x1 x2 x3 x4 x5 xp xr).1
      = [⟨Rect.unit (s := S256x4096) ![0, 0] S256x4096.size inb_S256x4096_S256x4096_0_0,
          k0_pay2 (withSlice arg9 harg9 (k0_off1 i) (k0_off1_inb i) xp (slice x0 x1 x2 x3 x4 x5)) (rowAdd xr x0 x1 x2 x3 x4 x5)⟩] := by
  unfold stepLast; dsimp only; sl_unfold_words
  rw [View.readCov_unit_zero (S := S256x1) _ hz]
  simp only [View.readAt_eq_ld, harg2.read_unread, harg3.read_unread, harg4.read_unread, harg5.read_unread, harg6.read_unread, harg7.read_unread, harg10.read_unread,
    View.ld_unit_zero (S := S256x1024) hz, View.ld_unit_zero (S := S512x1024) hz, View.ld_unit_zero (S := S256x1) hz]
  simp only [View.ld_unit_zero (S := S256x4096) hz]
  rfl

end Pieces

end Cert.KernelIdeal.Knn

end
-- ==== Proof.IdealSpecs.lean ====
/-
  The three cases of the body, stated by the values they leave: the posterior scratch with the point's
  slice written over what it held, the row-sum accumulator advanced, and at column tile 7 the output
  block holding the posterior scratch divided row by row by the accumulator. The values are named by
  the caller (`xp'`, `xr'`, `xo'`) up to the stated equations.
-/
import proofs.«101770_j38130719653974_1_alg».proof.Proof.IdealPieces

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A store through the whole shape, made last, reads back as its payload. -/
theorem read_whole_cons {sg : RefSig} {κ : Kind} {sp : Space} {S : Shape} {e : EltTy} (v : View sg κ sp S e) (f : v.ty.Contents (Elt F))
    (off : Fin S.rank → ℕ) (hoff : off = fun _ => 0) (inb : ∀ a, off a + S.size a ≤ S.size a) (w : (Rect.unit off S.size inb).shape.Idx → Elt F e) (L : List (View.Piece (Elt F) S e)) :
    v.read (Elt F) (v.writes (Elt F) f ((⟨Rect.unit off S.size inb, w⟩ : View.Piece (Elt F) S e) :: L)) = w :=
  funext fun y => View.read_writes_cons_unit_of_mem v f inb w L y y hoff (fun a => (Nat.zero_add _).symm)

section Specs

variable (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x4096 .f32) (harg8 : arg8.IsWhole) (arg9 : Memref sig .tc .vmem S256x4096 .f32) (harg9 : arg9.IsWhole) (arg10 : Memref sig .tc .vmem S256x1 .f32) (harg10 : arg10.IsWhole) (x0 : Vec F S256x1024 .f32) (x1 : Vec F S256x1024 .f32) (x2 : Vec F S512x1024 .f32) (x3 : Vec F S512x1024 .f32) (x4 : Vec F S256x1 .f32) (x5 : Vec F S256x1 .f32)

theorem stepFirst_spec (hc0 : atFirstCol i) (hc1 : ¬atLastCol i) (xo xp : Vec F S256x4096 .f32)
    (xp' : Vec F S256x4096 .f32) (hp : xp' = (withSlice arg9 harg9 (k0_off1 i) (k0_off1_inb i) xp (slice x0 x1 x2 x3 x4 x5))) (xr' : Vec F S256x1 .f32) (hr : xr' = rowAdd rowZero x0 x1 x2 x3 x4 x5)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp' ∗ owns (c : Thread nD τ) arg10 fullShare xr') -∗ K ⟨⟩))
      ⊢ wp frame (wpE (defs₀ (F := F)) Variants.none c none) E (cc0__knn_kernel i arg2 harg2 arg3 harg3 arg4 harg4 arg5 harg5 arg6 harg6 arg7 harg7 arg8 harg8 arg9 harg9 arg10 harg10) K := by
  subst hp; subst hr
  iintro ⟨H0, H1, H2, H3, H4, H5, H6, HP, HR, Hk⟩
  iapply ((stepFirst c i arg2 harg2 arg3 harg3 arg4 harg4 arg5 harg5 arg6 harg6 arg7 harg7 arg8 harg8 arg9 harg9 arg10 harg10 hc0 hc1 x0 x1 x2 x3 x4 x5).2.2 xo xp E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]; · iexact HP
  isplitl [HR]; · iexact HR
  iintro ⟨H0, H1, H2, H3, H4, H5, H6, HP, ⟨%f, HR⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]
  · unfold owns; iexists _; isplitr; swap; · iexact HP
    ipureintro; rw [stepFirst_post]; rfl
  unfold owns; iexists _; isplitr; swap; · iexact HR
  ipureintro; rw [stepFirst_rows]; exact read_whole_cons _ _ _ hz _ _ _

theorem stepMid_spec (hc0 : ¬atFirstCol i) (hc1 : ¬atLastCol i) (xr : Vec F S256x1 .f32) (xo xp : Vec F S256x4096 .f32)
    (xp' : Vec F S256x4096 .f32) (hp : xp' = (withSlice arg9 harg9 (k0_off1 i) (k0_off1_inb i) xp (slice x0 x1 x2 x3 x4 x5))) (xr' : Vec F S256x1 .f32) (hr : xr' = rowAdd xr x0 x1 x2 x3 x4 x5)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp ∗ owns (c : Thread nD τ) arg10 fullShare xr
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xp' ∗ owns (c : Thread nD τ) arg10 fullShare xr') -∗ K ⟨⟩))
      ⊢ wp frame (wpE (defs₀ (F := F)) Variants.none c none) E (cc0__knn_kernel i arg2 harg2 arg3 harg3 arg4 harg4 arg5 harg5 arg6 harg6 arg7 harg7 arg8 harg8 arg9 harg9 arg10 harg10) K := by
  subst hp; subst hr
  iintro ⟨H0, H1, H2, H3, H4, H5, H6, HP, HR, Hk⟩
  iapply ((stepMid c i arg2 harg2 arg3 harg3 arg4 harg4 arg5 harg5 arg6 harg6 arg7 harg7 arg8 harg8 arg9 harg9 arg10 harg10 hc0 hc1 x0 x1 x2 x3 x4 x5 xr).2.2 xo xp E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]; · iexact HP
  isplitl [HR]; · iexact HR
  iintro ⟨H0, H1, H2, H3, H4, H5, H6, HP, ⟨%f, HR⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]
  · unfold owns; iexists _; isplitr; swap; · iexact HP
    ipureintro; rw [stepMid_post]; rfl
  unfold owns; iexists _; isplitr; swap; · iexact HR
  ipureintro; rw [stepMid_rows]; exact read_whole_cons _ _ _ hz _ _ _

theorem stepLast_spec (hc0 : ¬atFirstCol i) (hc1 : atLastCol i) (xr : Vec F S256x1 .f32) (xp : Vec F S256x4096 .f32)
    (xp' : Vec F S256x4096 .f32) (hp : xp' = (withSlice arg9 harg9 (k0_off1 i) (k0_off1_inb i) xp (slice x0 x1 x2 x3 x4 x5))) (xr' : Vec F S256x1 .f32) (hr : xr' = rowAdd xr x0 x1 x2 x3 x4 x5)
    (xo' : Vec F S256x4096 .f32) (ho : xo' = k0_pay2 xp' xr')
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xp ∗ owns (c : Thread nD τ) arg10 fullShare xr
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo' ∗ owns (c : Thread nD τ) arg9 fullShare xp' ∗ owns (c : Thread nD τ) arg10 fullShare xr') -∗ K ⟨⟩))
      ⊢ wp frame (wpE (defs₀ (F := F)) Variants.none c none) E (cc0__knn_kernel i arg2 harg2 arg3 harg3 arg4 harg4 arg5 harg5 arg6 harg6 arg7 harg7 arg8 harg8 arg9 harg9 arg10 harg10) K := by
  subst ho; subst hp; subst hr
  iintro ⟨H0, H1, H2, H3, H4, H5, H6, HP, HR, Hk⟩
  iapply ((stepLast c i arg2 harg2 arg3 harg3 arg4 harg4 arg5 harg5 arg6 harg6 arg7 harg7 arg8 harg8 arg9 harg9 arg10 harg10 hc0 hc1 x0 x1 x2 x3 x4 x5 xp xr).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]; · iexact HP
  isplitl [HR]; · iexact HR
  iintro ⟨H0, H1, H2, H3, H4, H5, ⟨%g, H6⟩, HP, ⟨%f, HR⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; rw [stepLast_out]; exact read_whole_cons _ _ _ hz _ _ _
  isplitl [HP]
  · unfold owns; iexists _; isplitr; swap; · iexact HP
    ipureintro; rw [stepLast_post]; rfl
  unfold owns; iexists _; isplitr; swap; · iexact HR
  ipureintro; rw [stepLast_rows]; exact read_whole_cons _ _ _ hz _ _ _

end Specs

end Cert.KernelIdeal.Knn

end
-- ==== Proof.IdealCarried.lean ====
/-
  What the two scratches hold from point to point. Point t is row tile t / 8, column tile t % 8. After
  point t the posterior scratch holds, in the columns of every column tile visited so far in t's row
  tile, the slice computed there; what the other columns hold (left by an earlier row tile, or by
  nothing) is never read before it is overwritten. The row-sum accumulator restarts from zero at
  column tile 0 and otherwise continues from the point before. At column tile 7 all eight slices of the
  row tile are in place, so the scratch is the whole 256 x 4096 posterior block of the row tile, and
  the output block is that block with each row divided by the accumulated row sum.
-/
import proofs.«101770_j38130719653974_1_alg».proof.Proof.IdealSpecs
import Idealize.ShloMosaic.Lib.ValueIdx

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The slice of the posterior computed at point `t`, from the point's six input blocks. -/
def sliceAt (c : Dev nD) (t : Fin cfg0.N) : Vec F S256x512 .f32 :=
  slice (iblk m c 0 t) (iblk m c 1 t) (iblk m c 2 t) (iblk m c 3 t) (iblk m c 4 t) (iblk m c 5 t)

/-- The accumulator after point `t` when it held `prev` before. -/
def rowStep (c : Dev nD) (prev : Vec F S256x1 .f32) (t : Fin cfg0.N) : Vec F S256x1 .f32 :=
  rowAdd prev (iblk m c 0 t) (iblk m c 1 t) (iblk m c 2 t) (iblk m c 3 t) (iblk m c 4 t) (iblk m c 5 t)

/-- The row-sum accumulator after point `n`: restarted from zero at column tile 0. -/
def rowsAt (c : Dev nD) : (n : ℕ) → n < cfg0.N → Vec F S256x1 .f32
  | 0, h => rowStep m c rowZero ⟨0, h⟩
  | n + 1, h => rowStep m c (if (n + 1) % 8 = 0 then rowZero else rowsAt c n (Nat.lt_of_succ_lt h)) ⟨n + 1, h⟩

theorem rowsAt_first (c : Dev nD) (t : Fin cfg0.N) (h : t.val % 8 = 0) :
    rowsAt m c t.val t.isLt = rowStep m c rowZero t := by
  obtain ⟨n, hn⟩ := t
  cases n with
  | zero => rfl
  | succ n =>
    show rowStep m c (if (n + 1) % 8 = 0 then rowZero else rowsAt m c n (Nat.lt_of_succ_lt hn)) ⟨n + 1, hn⟩ = _
    rw [if_pos h]

theorem rowsAt_next (c : Dev nD) (t : Fin cfg0.N) (h : ¬ t.val % 8 = 0) :
    rowsAt m c t.val t.isLt = rowStep m c (rowsAt m c (t.val - 1) (Nat.lt_of_le_of_lt (Nat.sub_le _ _) t.isLt)) t := by
  obtain ⟨n, hn⟩ := t
  cases n with
  | zero => exact absurd (Nat.zero_mod _) h
  | succ n =>
    show rowStep m c (if (n + 1) % 8 = 0 then rowZero else rowsAt m c n (Nat.lt_of_succ_lt hn)) ⟨n + 1, hn⟩ = _
    rw [if_neg h]; rfl

/-- The whole posterior block of the row tile of point `t`: column `j` is column `j % 512` of the slice
    computed at column tile `j / 512` of that row tile. -/
def postOf (c : Dev nD) (t : Fin cfg0.N) : Vec F S256x4096 .f32 := fun y =>
  sliceAt m c ⟨8 * (t.val / 8) + (y 1).val / 512, by
      have h1 := ValueIdx.idx2_lt1 y
      have h2 : t.val < 128 := lt_of_lt_of_eq t.isLt (show cfg0.N = 128 from N_0)
      have h3 : cfg0.N = 128 := N_0
      omega⟩
    (ValueIdx.ix2 (y 0) ⟨(y 1).val % 512, Nat.mod_lt _ (by decide)⟩)

/-- The output block stored at a point of column tile 7. -/
def outAt (c : Dev nD) (t : Fin cfg0.N) : Vec F S256x4096 .f32 :=
  k0_pay2 (postOf m c t) (rowsAt m c t.val t.isLt)

/-- What is known of the posterior scratch before point `n`: for every earlier point of the row tile
    of point `n - 1`, its slice's columns hold its slice. -/
def SlicesIn (c : Dev nD) (n : ℕ) (X : Vec F S256x4096 .f32) : Prop :=
  ∀ t' : Fin cfg0.N, t'.val < n → t'.val / 8 = (n - 1) / 8 →
    ∀ (x : S256x512.Idx) (y : S256x4096.Idx), (y 0).val = (x 0).val → (y 1).val = 512 * (t'.val % 8) + (x 1).val →
      X y = sliceAt m c t' x

/-- Storing point `t`'s slice keeps the earlier slices of the row tile and adds this one. -/
theorem slicesIn_step (c : Dev nD) (t : Fin cfg0.N) (M : Memref sig .tc .vmem S256x4096 .f32) (hM : M.IsWhole)
    (xp : Vec F S256x4096 .f32) (h : t.val % 8 = 0 ∨ SlicesIn m c t.val xp) :
    SlicesIn m c (t.val + 1) (withSlice M hM (k0_off1 (grid0.coords t)) (k0_off1_inb (grid0.coords t)) xp (sliceAt m c t)) := by
  intro t' ht' hq x y h0 h1
  have hx := ValueIdx.idx2_lt1 x
  rw [Nat.add_sub_cancel] at hq
  by_cases he : t'.val = t.val
  · obtain rfl : t' = t := Fin.ext he
    exact withSlice_hit M hM _ _ xp _ (512 * (t'.val % 8)) (sliceOff_eq t') y x h0 h1
  · have hlt : t'.val < t.val := by omega
    rw [withSlice_miss M hM _ _ xp _ (512 * (t.val % 8)) (sliceOff_eq t) y (by omega)]
    rcases h with h | h
    · exfalso; omega
    · exact h t' hlt (by omega) x y h0 h1

/-- At column tile 7 the eight slices are all in place: the scratch is the row tile's posterior block. -/
theorem slicesIn_full (c : Dev nD) (t : Fin cfg0.N) (h7 : t.val % 8 = 7) (X : Vec F S256x4096 .f32)
    (hX : SlicesIn m c (t.val + 1) X) : X = postOf m c t := by
  funext y
  have hy := ValueIdx.idx2_lt1 y
  have hN : t.val < 128 := lt_of_lt_of_eq t.isLt (show cfg0.N = 128 from N_0)
  unfold postOf
  refine hX _ ?_ ?_ _ y rfl ?_
  · show 8 * (t.val / 8) + (y 1).val / 512 < t.val + 1
    omega
  · show (8 * (t.val / 8) + (y 1).val / 512) / 8 = (t.val + 1 - 1) / 8
    omega
  · show (y 1).val = 512 * ((8 * (t.val / 8) + (y 1).val / 512) % 8) + (y 1).val % 512
    omega

/-- The region invariant before point `n`: the posterior scratch at some contents with the slices of the
    current row tile in place (nothing known at column tile 0), the accumulator at the fold up to the
    point before (anything before the first point), the generator register at some state. -/
def carried (c : Dev nD) (n : ℕ) (hn : n ≤ cfg0.N) : sProp 𝕄 :=
  iprop(iprop((∃ X, ⌜n % 8 = 0 ∨ SlicesIn m c n X⌝ ∗ owns (c : Thread nD τ) postM fullShare X)
      ∗ (∃ R, ⌜∀ h : n ≠ 0, R = rowsAt m c (n - 1) (Nat.lt_of_lt_of_le (Nat.sub_lt (Nat.pos_of_ne_zero h) Nat.one_pos) hn)⌝ ∗ owns (c : Thread nD τ) sumM fullShare R))
    ∗ (∃ r, prngReg c r))

/-- The proof data: the arrays as the region finds them; after the body the inputs' buffers at their
    blocks and the output's at `outAt` (read only where the block is written back: column tile 7). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.KernelIdeal.Knn

end
-- ==== Proof.IdealBody.lean ====
/-
  The body obligation at a generic point, by the point's column tile: at tile 0 the accumulator is
  restarted, at tiles 1 to 6 it continues, at tile 7 the output block is stored as well; in each case
  the invariant is handed to the next point with this point's slice added and the accumulator advanced.
  Then the run of the whole program and the frame.
-/
import proofs.«101770_j38130719653974_1_alg».proof.Proof.IdealCarried

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem noflush6 (t : Fin cfg0.N) (h7 : ¬ t.val % 8 = 7) : (cfg0.win 6).flush t = false :=
  Bool.eq_false_iff.mpr fun h => h7 ((flush0_6 t).mp h)

theorem live6 (t : Fin cfg0.N) (h7 : t.val % 8 = 7) : cfg0.idle 6 (grid0.coords t) = false :=
  Bool.eq_false_iff.mpr fun h => (idle6_iff t).mp h h7

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = carried m c (t.val + 1) t.isLt from rfl, carried_castSucc m c t]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  unfold carried
  have hN : t.val < 128 := lt_of_lt_of_eq t.isLt (show cfg0.N = 128 from N_0)
  by_cases h0 : t.val % 8 = 0
  · have h7 : ¬ t.val % 8 = 7 := by omega
    rw [Dat.leavesExact_idle (dats m 0 c) 6 t ((idle6_iff t).mpr h7) (noflush6 t h7)]
    iintro ⟨⟨⟨⟨%X, %hX, HP⟩, ⟨%R, %hR, HR⟩⟩, Hg⟩, Ho, ⟨%d0, H0⟩, ⟨%d1, H1⟩, ⟨%d2, H2⟩, ⟨%d3, H3⟩, ⟨%d4, H4⟩, ⟨%d5, H5⟩, ⟨%d6, H6⟩⟩
    iapply (stepFirst_spec c (grid0.coords t) (ms0 t) (hs0 t) (ms1 t) (hs1 t) (ms2 t) (hs2 t) (ms3 t) (hs3 t) (ms4 t) (hs4 t) (ms5 t) (hs5 t) (ms6 t) (hs6 t) postM (Memref.isWhole_whole _) sumM (Memref.isWhole_whole _) (iblk m c 0 t) (iblk m c 1 t) (iblk m c 2 t) (iblk m c 3 t) (iblk m c 4 t) (iblk m c 5 t)
      ((atFirstCol_iff t).mpr h0) (fun h => h7 ((atLastCol_iff t).mp h)) ((dats m 0 c).before 6 t d6) X
      (withSlice postM (Memref.isWhole_whole _) (k0_off1 (grid0.coords t)) (k0_off1_inb (grid0.coords t)) X (sliceAt m c t)) rfl
      (rowsAt m c t.val t.isLt) (rowsAt_first m c t h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HP]; · iexact HP
    isplitl [HR]; · iexists _; iexact HR
    iintro ⟨H0, H1, H2, H3, H4, H5, H6, HP, HR⟩
    isplitl [HP HR Hg]
    · isplitl [HP HR]
      · isplitl [HP]
        · iexists _; isplitr; swap; · iexact HP
          ipureintro; exact Or.inr (slicesIn_step m c t postM (Memref.isWhole_whole _) X hX)
        iexists _; isplitr; swap; · iexact HR
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hne : t.val ≠ 0 := fun h => h0 (by rw [h])
    by_cases h7 : t.val % 8 = 7
    · rw [show (dats m 0 c).leavesExact 6 t = owns (c : Thread nD τ) (ms6 t) fullShare ((dats m 0 c).after 6 t) from by
        unfold Dat.leavesExact; rw [live6 t h7], after6]
      iintro ⟨⟨⟨⟨%X, %hX, HP⟩, ⟨%R, %hR, HR⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl := hR hne
      iapply (stepLast_spec c (grid0.coords t) (ms0 t) (hs0 t) (ms1 t) (hs1 t) (ms2 t) (hs2 t) (ms3 t) (hs3 t) (ms4 t) (hs4 t) (ms5 t) (hs5 t) (ms6 t) (hs6 t) postM (Memref.isWhole_whole _) sumM (Memref.isWhole_whole _) (iblk m c 0 t) (iblk m c 1 t) (iblk m c 2 t) (iblk m c 3 t) (iblk m c 4 t) (iblk m c 5 t)
        (fun h => h0 ((atFirstCol_iff t).mp h)) ((atLastCol_iff t).mpr h7) _ X
        (withSlice postM (Memref.isWhole_whole _) (k0_off1 (grid0.coords t)) (k0_off1_inb (grid0.coords t)) X (sliceAt m c t)) rfl
        (rowsAt m c t.val t.isLt) (rowsAt_next m c t h0)
        (outAt m c t) (by
          unfold outAt
          rw [← slicesIn_full m c t h7 _ (slicesIn_step m c t postM (Memref.isWhole_whole _) X hX)]) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HP]; · iexact HP
      isplitl [HR]; · iexact HR
      iintro ⟨H0, H1, H2, H3, H4, H5, H6, HP, HR⟩
      isplitl [HP HR Hg]
      · isplitl [HP HR]
        · isplitl [HP]
          · iexists _; isplitr; swap; · iexact HP
            ipureintro; exact Or.inr (slicesIn_step m c t postM (Memref.isWhole_whole _) X hX)
          iexists _; isplitr; swap; · iexact HR
          ipureintro; exact fun _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t ((idle6_iff t).mpr h7) (noflush6 t h7)]
      iintro ⟨⟨⟨⟨%X, %hX, HP⟩, ⟨%R, %hR, HR⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl := hR hne
      iapply (stepMid_spec c (grid0.coords t) (ms0 t) (hs0 t) (ms1 t) (hs1 t) (ms2 t) (hs2 t) (ms3 t) (hs3 t) (ms4 t) (hs4 t) (ms5 t) (hs5 t) (ms6 t) (hs6 t) postM (Memref.isWhole_whole _) sumM (Memref.isWhole_whole _) (iblk m c 0 t) (iblk m c 1 t) (iblk m c 2 t) (iblk m c 3 t) (iblk m c 4 t) (iblk m c 5 t)
        (fun h => h0 ((atFirstCol_iff t).mp h)) (fun h => h7 ((atLastCol_iff t).mp h)) _ ((dats m 0 c).before 6 t d6) X
        (withSlice postM (Memref.isWhole_whole _) (k0_off1 (grid0.coords t)) (k0_off1_inb (grid0.coords t)) X (sliceAt m c t)) rfl
        (rowsAt m c t.val t.isLt) (rowsAt_next m c t h0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HP]; · iexact HP
      isplitl [HR]; · iexact HR
      iintro ⟨H0, H1, H2, H3, H4, H5, H6, HP, HR⟩
      isplitl [HP HR Hg]
      · isplitl [HP HR]
        · isplitl [HP]
          · iexists _; isplitr; swap; · iexact HP
            ipureintro; exact Or.inr (slicesIn_step m c t postM (Memref.isWhole_whole _) X hX)
          iexists _; isplitr; swap; · iexact HR
          ipureintro; exact fun _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, entryInv_eq]
  unfold carried
  iintro ⟨⟨⟨%X, HP⟩, ⟨%R, HR⟩⟩, Hg⟩
  isplitl [HP HR]
  · isplitl [HP]
    · iexists X; isplitr
      · ipureintro; exact Or.inl (Nat.zero_mod _)
      iexact HP
    iexists R; isplitr
    · ipureintro; exact fun h => absurd rfl h
    iexact HR
  iexact Hg

/-- After the last point the invariant gives the scratches back at some contents. -/
theorem hout (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl, entryInv_eq]
  unfold carried
  iintro ⟨⟨⟨%X, -, HP⟩, ⟨%R, -, HR⟩⟩, Hg⟩
  isplitl [HP HR]
  · isplitl [HP]
    · iexists _; iexact HP
    iexists _; iexact HR
  iexact Hg

set_option backward.isDefEq.respectTransparency.types false in
/-- Every weakly fair execution of the program terminates, each windowed array at what the proof data
    computes, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Knn

end
-- ==== Proof.KnnSpec.lean ====
/-
  The specification, over the extended reals. For target rows T (shifted by eps) and context rows C,

      d(i, j) = sqrt (max (|T_i + eps|^2 + |C_j|^2 - 2 <T_i + eps, C_j>, 0)),

  taken for the rgb pair and for the flow pair; with w_r = c_r / (c_r + c_f) and w_f = c_f / (c_r + c_f),

      post (i, j) = w_r(i) e^(0 - d_rgb(i, j)) + w_f(i) e^(0 - d_flow(i, j)),
      result (i, j) = post (i, j) / sum_j' post (i, j').

  Two laws join the two programs to it. The factor two moves across a finite sum of extended reals,
  because two is a nonnegative real: 2 (x + y) = 2 x + 2 y holds at the infinities too. A row total over
  4096 columns is the left fold of the eight totals over consecutive runs of 512 columns, because
  addition of extended reals is commutative and associative. Neither law asks that anything be finite.
-/
import Idealize.ShloMosaic.Lib.ValueIdx
import Idealize.ShloMosaic.PureOps.Ideal.Laws

noncomputable section

namespace KnnSpec

open Idealize.ShloMosaic Idealize.ShloMosaic.ValueIdx
open scoped BigOperators

/-- The epsilon added to the target rows, the factor two of the cross term, and zero, as both programs spell them. -/
abbrev eps : EReal := Ideal.ofBits .f32 0x358637BD#32
abbrev two : EReal := Ideal.ofBits .f32 0x40000000#32
abbrev zer : EReal := Ideal.ofBits .f32 0x00000000#32

theorem zer_eq : zer = 0 := Ideal.ofBits_zero_f32

theorem two_eq : two = ((2 : ℝ) : EReal) := by
  simp [Ideal.ofBits, Ideal.ieee, -EReal.coe_mul]; norm_num

theorem two_nonneg : 0 ≤ two := by
  rw [two_eq]; exact_mod_cast (by norm_num : (0 : ℝ) ≤ 2)

theorem two_ne_top : two ≠ ⊤ := by
  rw [two_eq]; exact EReal.coe_ne_top _

/-- The distance from the two squared norms and the inner product. -/
def dist (aa bb ab : EReal) : EReal := Ideal.sqrt (max ((aa + bb) - two * ab) zer)

/-- One entry of the posterior from the two weights' numerators and the two distances. -/
def mix (cr cf dr df : EReal) : EReal :=
  Ideal.div cr (cr + cf) * Ideal.exp (zer - dr) + Ideal.div cf (cr + cf) * Ideal.exp (zer - df)

section Result

variable (Tr Tf Cr Cf : (⟨2, ![4096, 1024]⟩ : Shape).Idx → EReal) (wr wf : (⟨1, ![4096]⟩ : Shape).Idx → EReal)

def sqT (T : (⟨2, ![4096, 1024]⟩ : Shape).Idx → EReal) (i : Fin 4096) : EReal :=
  ∑ k : Fin 1024, (T (ix2 i k) + eps) * (T (ix2 i k) + eps)

def sqC (C : (⟨2, ![4096, 1024]⟩ : Shape).Idx → EReal) (j : Fin 4096) : EReal :=
  ∑ k : Fin 1024, C (ix2 j k) * C (ix2 j k)

def crossTC (T C : (⟨2, ![4096, 1024]⟩ : Shape).Idx → EReal) (i j : Fin 4096) : EReal :=
  ∑ k : Fin 1024, (T (ix2 i k) + eps) * C (ix2 j k)

/-- The unnormalised posterior. -/
def post (i j : Fin 4096) : EReal :=
  mix (wr (ix1 i)) (wf (ix1 i)) (dist (sqT Tr i) (sqC Cr j) (crossTC Tr Cr i j)) (dist (sqT Tf i) (sqC Cf j) (crossTC Tf Cf i j))

/-- The result: each row of the posterior divided by its total. -/
def result : (⟨2, ![4096, 4096]⟩ : Shape).Idx → EReal := fun y =>
  Ideal.div (post Tr Tf Cr Cf wr wf (y 0) (y 1)) (∑ j : Fin 4096, post Tr Tf Cr Cf wr wf (y 0) j)

end Result

/-! ## The factor two across a sum -/

theorem two_mul_sum {ι : Type*} (s : Finset ι) (f : ι → EReal) : two * ∑ k ∈ s, f k = ∑ k ∈ s, two * f k := by
  classical
  induction s using Finset.induction_on with
  | empty => simp
  | insert a s ha ih =>
    rw [Finset.sum_insert ha, Finset.sum_insert ha, EReal.left_distrib_of_nonneg_of_ne_top two_nonneg two_ne_top, ih]

/-- An inner product whose left factors were doubled first is twice the inner product. -/
theorem sum_two_mul_mul {ι : Type*} [Fintype ι] (a b : ι → EReal) : ∑ k, (two * a k) * b k = two * ∑ k, a k * b k := by
  rw [two_mul_sum]
  exact Finset.sum_congr rfl fun k _ => mul_assoc _ _ _

theorem zer_sub (x : EReal) : zer - x = -x := by
  rw [zer_eq, sub_eq_add_neg, zero_add]

theorem zer_add (x : EReal) : zer + x = x := by
  rw [zer_eq, zero_add]

/-! ## A row total by tiles of 512 columns -/

/-- A row, extended by zero beyond its 4096 columns. -/
def ext (f : Fin 4096 → EReal) : ℕ → EReal := fun j => if h : j < 4096 then f ⟨j, h⟩ else 0

theorem sum_eq_range (f : Fin 4096 → EReal) : ∑ j : Fin 4096, f j = ∑ j ∈ Finset.range 4096, ext f j := by
  rw [← Fin.sum_univ_eq_sum_range]
  refine Finset.sum_congr rfl fun j _ => ?_
  unfold ext
  rw [dif_pos j.isLt]

/-- The total of column tile `c`. -/
theorem tile_eq_range (f : Fin 4096 → EReal) (c : ℕ) (hc : c < 8) (s : Fin 512 → EReal)
    (hs : ∀ q : Fin 512, s q = f ⟨512 * c + q.val, by have := q.isLt; omega⟩) :
    ∑ q : Fin 512, s q = ∑ q ∈ Finset.range 512, ext f (512 * c + q) := by
  rw [← Fin.sum_univ_eq_sum_range (fun q => ext f (512 * c + q))]
  refine Finset.sum_congr rfl fun q _ => ?_
  rw [hs q]
  unfold ext
  rw [dif_pos (by have := q.isLt; omega)]

/-- The columns before tile `k`, then tile `k`: the columns before tile `k + 1`. -/
theorem range_tile_step (f : Fin 4096 → EReal) (k : ℕ) :
    (∑ j ∈ Finset.range (512 * k), ext f j) + ∑ q ∈ Finset.range 512, ext f (512 * k + q)
      = ∑ j ∈ Finset.range (512 * (k + 1)), ext f j := by
  rw [show 512 * (k + 1) = 512 * k + 512 by ring, Finset.sum_range_add]

end KnnSpec

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.IdealPayload.lean ====
/-
  The body's arithmetic at an index, over the extended reals. For a row r of the target tile and a row q
  of the context tile, with a = target row + eps and b = context row, the point computes

      |a|^2 + |b|^2 - 2 <a, b>,   clamps it at zero, takes the square root d,

  once for the rgb pair and once for the flow pair, and the slice entry is
  w_r e^(0 - d_rgb) + w_f e^(0 - d_flow) with w_r = c_r / (c_r + c_f), w_f = c_f / (c_r + c_f).
  The accumulator gains the sum of the slice's row.
-/
import proofs.«101770_j38130719653974_1_alg».proof.Proof.IdealPieces
import proofs.«101770_j38130719653974_1_alg».proof.Proof.KnnSpec
import proofs.«101770_j38130719653974_1_alg».proof.Proof.LibPlainDot
import proofs.«101770_j38130719653974_1_alg».proof.Proof.LibKeepDims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Knn

open Idealize.ShloMosaic Idealize.ShloMosaic.TcCoe Idealize.ShloMosaic.ValueIdx
open Idealize.SL.Sem
open Cert.KernelIdeal Cert.KernelIdeal.Gen
open scoped BigOperators

open KnnSpec

/-- A row `[1, b]` broadcast over `a` rows reads, at `(r, q)`, the row at `q`. -/
theorem broadcastTo_1b_ab_apply {α : Type} {a b : ℕ} (v : (⟨2, ![1, b]⟩ : Shape).Idx → α) (h : (⟨2, ![1, b]⟩ : Shape).Broadcasts ⟨2, ![a, b]⟩)
    (r : Fin a) (q : Fin b) : broadcastTo ⟨2, ![a, b]⟩ v h (ix2 r q) = v (ix2 (0 : Fin 1) q) := by
  refine broadcastTo_apply v h (ix2 r q) (ix2 (0 : Fin 1) q) fun ax => ?_
  match ax with
  | ⟨0, _⟩ => rfl
  | ⟨1, _⟩ =>
    show q.val = if b = 1 then 0 else q.val
    split
    · have := q.isLt; omega
    · rfl

/-- The transpose of an `[a, b]` array reads, at `(k, q)`, the array at `(q, k)`. -/
theorem transpose_ab_ba_apply {α : Type} {a b : ℕ} (x : (⟨2, ![a, b]⟩ : Shape).Idx → α) (h : (⟨2, ![a, b]⟩ : Shape).Transposes [1, 0] ⟨2, ![b, a]⟩)
    (k : Fin b) (q : Fin a) : transpose ⟨2, ![b, a]⟩ [1, 0] x h (ix2 k q) = x (ix2 q k) := by
  refine transpose_apply [1, 0] x h (ix2 k q) (ix2 q k) fun bx => ?_
  match bx with
  | ⟨0, _⟩ => rfl
  | ⟨1, _⟩ => rfl

theorem vexp_apply {s : Shape} {φ : FTy} (x : FVec Ideal s φ) (i : s.Idx) : Idealize.ShloMosaic.exp x i = Ideal.exp (x i) := rfl
theorem vsqrt_apply {s : Shape} {φ : FTy} (x : FVec Ideal s φ) (i : s.Idx) : Idealize.ShloMosaic.sqrt x i = Ideal.sqrt (x i) := rfl

/-- The elementwise tail of the body at `(r, q)`. -/
theorem pay11_apply (v18 : FVec Ideal S256x512 .f32) (v28 : FVec Ideal S256x1 .f32) (v32 : FVec Ideal S1x512 .f32)
    (v35 v37 : FVec Ideal S256x512 .f32) (v51 v53 : Vec Ideal S256x1 .f32) (r : Fin 256) (q : Fin 512) :
    k0_pay11 v18 v28 v32 v35 v37 v51 v53 (ix2 r q)
      = mix (v51 (ix2 r (0 : Fin 1))) (v53 (ix2 r (0 : Fin 1)))
          (Ideal.sqrt (max (v35 (ix2 r q) - v37 (ix2 r q)) zer))
          (Ideal.sqrt (max ((v28 (ix2 r (0 : Fin 1)) + v32 (ix2 (0 : Fin 1) q)) - two * v18 (ix2 r q)) zer)) := by
  unfold k0_pay11 mix
  simp only [shapeCast_self]
  simp only [addf_apply, subf_apply, mulf_apply, maximumf_apply, divf_apply, broadcast_apply, vexp_apply, vsqrt_apply,
    KeepDims.broadcastTo_a1_ab_apply, broadcastTo_1b_ab_apply]
  rfl

/-! ## The sums -/

/-- The squared norm of row `r` of a target tile shifted by eps, of row `q` of a context tile, and their
    inner product. -/
def sqA (x : Vec Ideal S256x1024 .f32) (r : Fin 256) : EReal := ∑ k : Fin 1024, (x (ix2 r k) + eps) * (x (ix2 r k) + eps)
def sqB (x : Vec Ideal S512x1024 .f32) (q : Fin 512) : EReal := ∑ k : Fin 1024, x (ix2 q k) * x (ix2 q k)
def crossAB (x : Vec Ideal S256x1024 .f32) (y : Vec Ideal S512x1024 .f32) (r : Fin 256) (q : Fin 512) : EReal :=
  ∑ k : Fin 1024, (x (ix2 r k) + eps) * y (ix2 q k)

theorem rowSq_apply (y : FVec Ideal S256x1024 .f32) (r : Fin 256) (u : Fin 1) :
    shapeCast S256x1 (multiReduction .add [1] S256 (mulf y y) 0x00000000#32 reduces_S256x1024_S256 (.inl rfl) rfl) shapeCasts_S256_S256x1 (ix2 r u)
      = ∑ k : Fin 1024, y (ix2 r k) * y (ix2 r k) := by
  refine (KeepDims.shapeCast_a_a1_apply _ _ r u).trans ?_
  exact KeepDims.laneSum_apply (mulf y y) _ _ _ r

theorem colSq_apply (y : FVec Ideal S512x1024 .f32) (u : Fin 1) (q : Fin 512) :
    transpose S1x512 [1, 0] (shapeCast S512x1 (multiReduction .add [1] S512 (mulf y y) 0x00000000#32 reduces_S512x1024_S512 (.inl rfl) rfl) shapeCasts_S512_S512x1) transposes_S512x1_p1_0_S1x512 (ix2 u q)
      = ∑ k : Fin 1024, y (ix2 q k) * y (ix2 q k) := by
  refine (transpose_ab_ba_apply _ _ u q).trans ?_
  refine (KeepDims.shapeCast_a_a1_apply _ _ q u).trans ?_
  exact KeepDims.laneSum_apply (mulf y y) _ _ _ q

theorem dotPlain : PlainDot.IsPlain dot_S256x1024_S1024x512_S256x512_1_0_0_1_n_n := ⟨rfl, rfl, rfl, rfl, rfl, rfl⟩

theorem cross_apply (a : FVec Ideal S256x1024 .f32) (b : Vec Ideal S512x1024 .f32) (r : Fin 256) (q : Fin 512) :
    matmul dot_S256x1024_S1024x512_S256x512_1_0_0_1_n_n none (truncf .bf16 a bitsLt_bf16_f32)
        (transpose S1024x512 [1, 0] (truncf .bf16 b bitsLt_bf16_f32) transposes_S512x1024_p1_0_S1024x512) (constant S256x512 .f32 0x00000000#32) (ix2 r q)
      = ∑ k : Fin 1024, a (ix2 r k) * b (ix2 q k) := by
  refine (PlainDot.matmul_zero_apply dotPlain _ _ r q).trans ?_
  refine Finset.sum_congr rfl fun k _ => ?_
  rw [transpose_ab_ba_apply]
  rfl

theorem pay7_apply (x1 : Vec Ideal S256x1024 .f32) (r : Fin 256) : k0_pay7 x1 (ix2 r (0 : Fin 1)) = sqA x1 r :=
  rowSq_apply (k0_pay5 x1) r 0

theorem pay8_apply (x3 : Vec Ideal S512x1024 .f32) (q : Fin 512) : k0_pay8 x3 (ix2 (0 : Fin 1) q) = sqB x3 q :=
  colSq_apply x3 0 q

theorem pay6_apply (x1 : Vec Ideal S256x1024 .f32) (x3 : Vec Ideal S512x1024 .f32) (r : Fin 256) (q : Fin 512) :
    k0_pay6 x1 x3 (ix2 r q) = crossAB x1 x3 r q :=
  cross_apply (k0_pay5 x1) x3 r q

theorem pay9_apply (x0 : Vec Ideal S256x1024 .f32) (x2 : Vec Ideal S512x1024 .f32) (r : Fin 256) (q : Fin 512) :
    k0_pay9 x0 x2 (ix2 r q) = sqA x0 r + sqB x2 q := by
  unfold k0_pay9
  try dsimp only
  rw [addf_apply, KeepDims.broadcastTo_a1_ab_apply, broadcastTo_1b_ab_apply, rowSq_apply, colSq_apply]
  rfl

theorem pay10_apply (x0 : Vec Ideal S256x1024 .f32) (x2 : Vec Ideal S512x1024 .f32) (r : Fin 256) (q : Fin 512) :
    k0_pay10 x0 x2 (ix2 r q) = two * crossAB x0 x2 r q := by
  unfold k0_pay10
  try dsimp only
  rw [mulf_apply, broadcast_apply, cross_apply]
  rfl

/-- The slice at `(r, q)`. -/
theorem slice_apply (x0 x1 : Vec Ideal S256x1024 .f32) (x2 x3 : Vec Ideal S512x1024 .f32) (x4 x5 : Vec Ideal S256x1 .f32)
    (r : Fin 256) (q : Fin 512) :
    slice x0 x1 x2 x3 x4 x5 (ix2 r q)
      = mix (x4 (ix2 r (0 : Fin 1))) (x5 (ix2 r (0 : Fin 1))) (dist (sqA x0 r) (sqB x2 q) (crossAB x0 x2 r q))
          (dist (sqA x1 r) (sqB x3 q) (crossAB x1 x3 r q)) := by
  unfold slice k0_pay12
  try dsimp only
  rw [shapeCast_self, pay11_apply, pay9_apply, pay10_apply, pay7_apply, pay8_apply, pay6_apply]
  rfl

/-- The accumulator step at row `r`: what it held plus the sum of the slice's row. -/
theorem rowAdd_apply (prev : Vec Ideal S256x1 .f32) (x0 x1 : Vec Ideal S256x1024 .f32) (x2 x3 : Vec Ideal S512x1024 .f32) (x4 x5 : Vec Ideal S256x1 .f32)
    (r : Fin 256) (u : Fin 1) :
    rowAdd prev x0 x1 x2 x3 x4 x5 (ix2 r u) = prev (ix2 r u) + ∑ q : Fin 512, slice x0 x1 x2 x3 x4 x5 (ix2 r q) := by
  unfold rowAdd k0_pay1 k0_pay13
  try dsimp only
  rw [shapeCast_self, addf_apply, KeepDims.shapeCast_a_a1_apply, KeepDims.laneSum_apply]
  refine congrArg (prev (ix2 r u) + ·) (Finset.sum_congr rfl fun q _ => ?_)
  unfold slice k0_pay12
  try dsimp only
  rw [shapeCast_self]

theorem rowZero_apply (r : Fin 256) (u : Fin 1) : (rowZero (F := Ideal)) (ix2 r u) = zer := by
  unfold rowZero k0_pay3
  try dsimp only
  rw [shapeCast_self]
  rfl

/-- The output block at `(r, j)`: the posterior entry divided by the row's accumulated sum. -/
theorem pay2_apply (X : Vec Ideal S256x4096 .f32) (R : Vec Ideal S256x1 .f32) (r : Fin 256) (j : Fin 4096) :
    k0_pay2 X R (ix2 r j) = Ideal.div (X (ix2 r j)) (R (ix2 r (0 : Fin 1))) := by
  unfold k0_pay2
  try dsimp only
  rw [divf_apply, KeepDims.broadcastTo_a1_ab_apply]

end Cert.KernelIdeal.Knn

end
-- ==== Proof.IdealBlocks.lean ====
/-
  The windows' blocks as rows of their arrays. At point t (row tile t / 8, column tile t % 8) the two
  target windows and the two weight windows hold rows 256 (t / 8) + r of their arrays, the two context
  windows rows 512 (t % 8) + q, and the output window rows 256 (t / 8) + r, all columns.
-/
import proofs.«101770_j38130719653974_1_alg».proof.Proof.IdealCarried
import Idealize.ShloMosaic.Lib.ValueIdx

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The printed index maps over the grid. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0
    ∧ win0_6.index t (0 : Fin 2) = t.val / 8 ∧ win0_6.index t (1 : Fin 2) = 0 :=
  (by decide +kernel : ∀ t : Fin grid0.N, _)

theorem iblk0_apply (c : Dev nD) (t : Fin cfg0.N) (r : Fin 256) (k : Fin 1024) (i : Fin 4096) (hi : i.val = 256 * (t.val / 8) + r.val) :
    (iblk m c 0 t : Vec F S256x1024 .f32) (ix2 r k) = (V m c main_arg2 : S4096x1024.Idx → Elt F .f32) (ix2 i k) := by
  have e0 := (idx_facts t).1
  have e1 := (idx_facts t).2.1
  unfold iblk
  rw [View.read_apply]
  show V m c main_arg2 _ = V m c main_arg2 _
  congr 1
  funext a
  apply Fin.ext
  match a with
  | ⟨0, _⟩ => show win0_0.index t 0 * 256 + 1 * r.val = i.val; rw [e0, hi]; omega
  | ⟨1, _⟩ => show win0_0.index t 1 * 1024 + 1 * k.val = k.val; rw [e1]; omega

theorem iblk1_apply (c : Dev nD) (t : Fin cfg0.N) (r : Fin 256) (k : Fin 1024) (i : Fin 4096) (hi : i.val = 256 * (t.val / 8) + r.val) :
    (iblk m c 1 t : Vec F S256x1024 .f32) (ix2 r k) = (V m c main_arg3 : S4096x1024.Idx → Elt F .f32) (ix2 i k) := by
  have e0 := (idx_facts t).2.2.1
  have e1 := (idx_facts t).2.2.2.1
  unfold iblk
  rw [View.read_apply]
  show V m c main_arg3 _ = V m c main_arg3 _
  congr 1
  funext a
  apply Fin.ext
  match a with
  | ⟨0, _⟩ => show win0_1.index t 0 * 256 + 1 * r.val = i.val; rw [e0, hi]; omega
  | ⟨1, _⟩ => show win0_1.index t 1 * 1024 + 1 * k.val = k.val; rw [e1]; omega

theorem iblk2_apply (c : Dev nD) (t : Fin cfg0.N) (r : Fin 512) (k : Fin 1024) (i : Fin 4096) (hi : i.val = 512 * (t.val % 8) + r.val) :
    (iblk m c 2 t : Vec F S512x1024 .f32) (ix2 r k) = (V m c main_arg0 : S4096x1024.Idx → Elt F .f32) (ix2 i k) := by
  have e0 := (idx_facts t).2.2.2.2.1
  have e1 := (idx_facts t).2.2.2.2.2.1
  unfold iblk
  rw [View.read_apply]
  show V m c main_arg0 _ = V m c main_arg0 _
  congr 1
  funext a
  apply Fin.ext
  match a with
  | ⟨0, _⟩ => show win0_2.index t 0 * 512 + 1 * r.val = i.val; rw [e0, hi]; omega
  | ⟨1, _⟩ => show win0_2.index t 1 * 1024 + 1 * k.val = k.val; rw [e1]; omega

theorem iblk3_apply (c : Dev nD) (t : Fin cfg0.N) (r : Fin 512) (k : Fin 1024) (i : Fin 4096) (hi : i.val = 512 * (t.val % 8) + r.val) :
    (iblk m c 3 t : Vec F S512x1024 .f32) (ix2 r k) = (V m c main_arg1 : S4096x1024.Idx → Elt F .f32) (ix2 i k) := by
  have e0 := (idx_facts t).2.2.2.2.2.2.1
  have e1 := (idx_facts t).2.2.2.2.2.2.2.1
  unfold iblk
  rw [View.read_apply]
  show V m c main_arg1 _ = V m c main_arg1 _
  congr 1
  funext a
  apply Fin.ext
  match a with
  | ⟨0, _⟩ => show win0_3.index t 0 * 512 + 1 * r.val = i.val; rw [e0, hi]; omega
  | ⟨1, _⟩ => show win0_3.index t 1 * 1024 + 1 * k.val = k.val; rw [e1]; omega

theorem iblk4_apply (c : Dev nD) (t : Fin cfg0.N) (r : Fin 256) (k : Fin 1) (i : Fin 4096) (hi : i.val = 256 * (t.val / 8) + r.val) :
    (iblk m c 4 t : Vec F S256x1 .f32) (ix2 r k) = (V m c main_v0 : S4096x1.Idx → Elt F .f32) (ix2 i k) := by
  have e0 := (idx_facts t).2.2.2.2.2.2.2.2.1
  have e1 := (idx_facts t).2.2.2.2.2.2.2.2.2.1
  unfold iblk
  rw [View.read_apply]
  show V m c main_v0 _ = V m c main_v0 _
  congr 1
  funext a
  apply Fin.ext
  match a with
  | ⟨0, _⟩ => show win0_4.index t 0 * 256 + 1 * r.val = i.val; rw [e0, hi]; omega
  | ⟨1, _⟩ => show win0_4.index t 1 * 1 + 1 * k.val = k.val; rw [e1]; omega

theorem iblk5_apply (c : Dev nD) (t : Fin cfg0.N) (r : Fin 256) (k : Fin 1) (i : Fin 4096) (hi : i.val = 256 * (t.val / 8) + r.val) :
    (iblk m c 5 t : Vec F S256x1 .f32) (ix2 r k) = (V m c main_v1 : S4096x1.Idx → Elt F .f32) (ix2 i k) := by
  have e0 := (idx_facts t).2.2.2.2.2.2.2.2.2.2.1
  have e1 := (idx_facts t).2.2.2.2.2.2.2.2.2.2.2.1
  unfold iblk
  rw [View.read_apply]
  show V m c main_v1 _ = V m c main_v1 _
  congr 1
  funext a
  apply Fin.ext
  match a with
  | ⟨0, _⟩ => show win0_5.index t 0 * 256 + 1 * r.val = i.val; rw [e0, hi]; omega
  | ⟨1, _⟩ => show win0_5.index t 1 * 1 + 1 * k.val = k.val; rw [e1]; omega

end Cert.KernelIdeal.Knn

end
-- ==== Proof.IdealValue.lean ====
/-
  The kernel's result array is the specification. Point t's slice is the posterior on rows
  256 (t / 8) + r and columns 512 (t % 8) + q; the accumulator after point t holds the row's total over
  the columns of the tiles visited so far, hence at column tile 7 over all 4096; so the block written
  back there is the specification's result on the row tile, and the sixteen such blocks cover the array.
-/
import proofs.«101770_j38130719653974_1_alg».proof.Proof.IdealBody
import proofs.«101770_j38130719653974_1_alg».proof.Proof.IdealPayload
import proofs.«101770_j38130719653974_1_alg».proof.Proof.IdealBlocks
import proofs.«101770_j38130719653974_1_alg».proof.Proof.KnnSpec
import Idealize.ShloMosaic.Lib.StableHlo.Run

set_option maxRecDepth 16384

noncomputable section

namespace Cert.KernelIdeal.Knn

open Idealize.ShloMosaic Idealize.ShloMosaic.TcCoe Idealize.ShloMosaic.ValueIdx
open Idealize.SL.Sem
open Cert.KernelIdeal Cert.KernelIdeal.Gen
open scoped BigOperators
open KnnSpec
open Idealize.ShloMosaic.StableHlo

variable (m : (ℓ : Loc nD τ sig) → Buf (Elt Ideal) ℓ) (ρ : Dev nD → PrngReg)

/-- The six argument arrays: target rgb, target flow, context rgb, context flow, and the two weight vectors. -/
abbrev tRgb (c : Dev nD) : S4096x1024.Idx → EReal := m ((c : Thread nD τ).loc main_arg2)
abbrev tFlow (c : Dev nD) : S4096x1024.Idx → EReal := m ((c : Thread nD τ).loc main_arg3)
abbrev cRgb (c : Dev nD) : S4096x1024.Idx → EReal := m ((c : Thread nD τ).loc main_arg0)
abbrev cFlow (c : Dev nD) : S4096x1024.Idx → EReal := m ((c : Thread nD τ).loc main_arg1)
abbrev wR (c : Dev nD) : S4096.Idx → EReal := m ((c : Thread nD τ).loc main_arg4)
abbrev wF (c : Dev nD) : S4096.Idx → EReal := m ((c : Thread nD τ).loc main_arg5)

/-- The specification's posterior and result of these arrays. -/
def specPost (c : Dev nD) (i j : Fin 4096) : EReal := KnnSpec.post (tRgb m c) (tFlow m c) (cRgb m c) (cFlow m c) (wR m c) (wF m c) i j
def spec (c : Dev nD) : S4096x4096.Idx → EReal := KnnSpec.result (tRgb m c) (tFlow m c) (cRgb m c) (cFlow m c) (wR m c) (wF m c)

/-- The weight vectors reach the region as columns: the host reshapes them. -/
theorem col_r (c : Dev nD) (i : Fin 4096) (u : Fin 1) :
    (V m c main_v0 : S4096x1.Idx → EReal) (ix2 i u) = wR m c (ix1 i) := by
  have e : (V m c main_v0 : S4096x1.Idx → EReal) = shapeCast S4096x1 (wR m c) shapeCasts_S4096_S4096x1 := by
    dsimp only [V, hostOps0]; after_results; rfl
  rw [e]
  exact KeepDims.shapeCast_a_a1_apply _ _ i u

theorem col_f (c : Dev nD) (i : Fin 4096) (u : Fin 1) :
    (V m c main_v1 : S4096x1.Idx → EReal) (ix2 i u) = wF m c (ix1 i) := by
  have e : (V m c main_v1 : S4096x1.Idx → EReal) = shapeCast S4096x1 (wF m c) shapeCasts_S4096_S4096x1 := by
    dsimp only [V, hostOps0]; after_results; rfl
  rw [e]
  exact KeepDims.shapeCast_a_a1_apply _ _ i u

/-- Point `t`'s slice is the posterior on its rows and columns. -/
theorem sliceAt_apply (c : Dev nD) (t : Fin cfg0.N) (r : Fin 256) (q : Fin 512) (i j : Fin 4096)
    (hi : i.val = 256 * (t.val / 8) + r.val) (hj : j.val = 512 * (t.val % 8) + q.val) :
    sliceAt m c t (ix2 r q) = specPost m c i j := by
  have h4 : (iblk m c 4 t : Vec Ideal S256x1 .f32) (ix2 r (0 : Fin 1)) = wR m c (ix1 i) :=
    (iblk4_apply m c t r 0 i hi).trans (col_r m c i 0)
  have h5 : (iblk m c 5 t : Vec Ideal S256x1 .f32) (ix2 r (0 : Fin 1)) = wF m c (ix1 i) :=
    (iblk5_apply m c t r 0 i hi).trans (col_f m c i 0)
  have a0 : sqA (iblk m c 0 t) r = sqT (tRgb m c) i := by
    unfold sqA sqT
    exact Finset.sum_congr rfl fun k _ => by rw [iblk0_apply m c t r k i hi, V_main_arg2]
  have a1 : sqA (iblk m c 1 t) r = sqT (tFlow m c) i := by
    unfold sqA sqT
    exact Finset.sum_congr rfl fun k _ => by rw [iblk1_apply m c t r k i hi, V_main_arg3]
  have b2 : sqB (iblk m c 2 t) q = sqC (cRgb m c) j := by
    unfold sqB sqC
    exact Finset.sum_congr rfl fun k _ => by rw [iblk2_apply m c t q k j hj, V_main_arg0]
  have b3 : sqB (iblk m c 3 t) q = sqC (cFlow m c) j := by
    unfold sqB sqC
    exact Finset.sum_congr rfl fun k _ => by rw [iblk3_apply m c t q k j hj, V_main_arg1]
  have x02 : crossAB (iblk m c 0 t) (iblk m c 2 t) r q = crossTC (tRgb m c) (cRgb m c) i j := by
    unfold crossAB crossTC
    exact Finset.sum_congr rfl fun k _ => by rw [iblk0_apply m c t r k i hi, iblk2_apply m c t q k j hj, V_main_arg2, V_main_arg0]
  have x13 : crossAB (iblk m c 1 t) (iblk m c 3 t) r q = crossTC (tFlow m c) (cFlow m c) i j := by
    unfold crossAB crossTC
    exact Finset.sum_congr rfl fun k _ => by rw [iblk1_apply m c t r k i hi, iblk3_apply m c t q k j hj, V_main_arg3, V_main_arg1]
  show slice (iblk m c 0 t) (iblk m c 1 t) (iblk m c 2 t) (iblk m c 3 t) (iblk m c 4 t) (iblk m c 5 t) (ix2 r q) = _
  rw [slice_apply, h4, h5, a0, a1, b2, b3, x02, x13]
  rfl

/-- One step of the accumulator: the row's total over the tiles before, plus this tile's. -/
theorem rowStep_apply (c : Dev nD) (t : Fin cfg0.N) (prev : Vec Ideal S256x1 .f32) (r : Fin 256) (i : Fin 4096)
    (hi : i.val = 256 * (t.val / 8) + r.val)
    (hprev : prev (ix2 r (0 : Fin 1)) = ∑ j ∈ Finset.range (512 * (t.val % 8)), ext (specPost m c i) j) :
    rowStep m c prev t (ix2 r (0 : Fin 1)) = ∑ j ∈ Finset.range (512 * (t.val % 8 + 1)), ext (specPost m c i) j := by
  have hN : t.val < 128 := lt_of_lt_of_eq t.isLt (show cfg0.N = 128 from N_0)
  have ht : (∑ q : Fin 512, slice (iblk m c 0 t) (iblk m c 1 t) (iblk m c 2 t) (iblk m c 3 t) (iblk m c 4 t) (iblk m c 5 t) (ix2 r q))
      = ∑ q ∈ Finset.range 512, ext (specPost m c i) (512 * (t.val % 8) + q) :=
    tile_eq_range (specPost m c i) (t.val % 8) (by omega) (fun q => sliceAt m c t (ix2 r q))
      (fun q => sliceAt_apply m c t r q i ⟨512 * (t.val % 8) + q.val, by have := q.isLt; omega⟩ hi rfl)
  unfold rowStep
  rw [rowAdd_apply, hprev, ht, range_tile_step]

/-- The accumulator after point `n`: the row's total over the columns of the tiles visited so far. -/
theorem rows_apply (c : Dev nD) : ∀ (n : ℕ) (hn : n < cfg0.N) (r : Fin 256) (i : Fin 4096), i.val = 256 * (n / 8) + r.val →
    rowsAt m c n hn (ix2 r (0 : Fin 1)) = ∑ j ∈ Finset.range (512 * (n % 8 + 1)), ext (specPost m c i) j := by
  intro n
  induction n with
  | zero =>
    intro hn r i hi
    refine (congrFun (rowsAt_first m c ⟨0, hn⟩ rfl) (ix2 r 0)).trans ?_
    exact rowStep_apply m c ⟨0, hn⟩ rowZero r i hi (by
      rw [rowZero_apply, zer_eq]
      show (0 : EReal) = ∑ j ∈ Finset.range (512 * (0 % 8)), _
      simp)
  | succ n ih =>
    intro hn r i hi
    by_cases h0 : (n + 1) % 8 = 0
    · refine (congrFun (rowsAt_first m c ⟨n + 1, hn⟩ h0) (ix2 r 0)).trans ?_
      exact rowStep_apply m c ⟨n + 1, hn⟩ rowZero r i hi (by
        rw [rowZero_apply, zer_eq]
        show (0 : EReal) = ∑ j ∈ Finset.range (512 * ((n + 1) % 8)), _
        rw [h0]; simp)
    · refine (congrFun (rowsAt_next m c ⟨n + 1, hn⟩ h0) (ix2 r 0)).trans (rowStep_apply m c ⟨n + 1, hn⟩ _ r i hi ?_)
      have ih' := ih (Nat.lt_of_succ_lt hn) r i (by omega)
      have e8 : (n + 1) % 8 = n % 8 + 1 := by omega
      show rowsAt m c n _ (ix2 r 0) = ∑ j ∈ Finset.range (512 * ((n + 1) % 8)), _
      rw [e8]
      exact ih'

/-- What a point of column tile 7 writes back is its row tile of the specification's result. -/
theorem out_eq (c : Dev nD) (t : Fin cfg0.N) (h7 : t.val % 8 = 7) :
    (dats m 0 c).flushed 6 t = ((cfg0.win 6).blk t).view.read (Elt Ideal) (spec m c) := by
  have hN : t.val < 128 := lt_of_lt_of_eq t.isLt (show cfg0.N = 128 from N_0)
  have e0 := (idx_facts t).2.2.2.2.2.2.2.2.2.2.2.2.1
  have e1 := (idx_facts t).2.2.2.2.2.2.2.2.2.2.2.2.2
  funext y
  obtain ⟨r, j, rfl⟩ : ∃ (r : Fin 256) (j : Fin 4096), y = ix2 r j := ⟨y 0, y 1, eq_ix2 y⟩
  have hi : 256 * (t.val / 8) + r.val < 4096 := by have := r.isLt; omega
  have hemb : ((cfg0.win 6).blk t).view.emb (ix2 r j) = ix2 (⟨256 * (t.val / 8) + r.val, hi⟩ : Fin 4096) j := by
    funext a; apply Fin.ext
    match a with
    | ⟨0, _⟩ => show win0_6.index t 0 * 256 + 1 * r.val = 256 * (t.val / 8) + r.val; rw [e0]; omega
    | ⟨1, _⟩ => show win0_6.index t 1 * 4096 + 1 * j.val = j.val; rw [e1]; omega
  have hnum : postOf m c t (ix2 r j) = specPost m c ⟨256 * (t.val / 8) + r.val, hi⟩ j := by
    unfold postOf
    exact sliceAt_apply m c _ r _ _ j
      (by show 256 * (t.val / 8) + r.val = 256 * ((8 * (t.val / 8) + j.val / 512) / 8) + r.val; omega)
      (by show j.val = 512 * ((8 * (t.val / 8) + j.val / 512) % 8) + j.val % 512; omega)
  have hden : rowsAt m c t.val t.isLt (ix2 r (0 : Fin 1)) = ∑ j' : Fin 4096, specPost m c ⟨256 * (t.val / 8) + r.val, hi⟩ j' := by
    rw [rows_apply m c t.val t.isLt r ⟨256 * (t.val / 8) + r.val, hi⟩ rfl, h7, sum_eq_range]
  show (cfg0.win 6).cut (grid0.coords t) ((dats m 0 c).after 6 t) (ix2 r j) = _
  rw [after6, View.read_apply]
  show outAt m c t (ix2 r j) = spec m c (((cfg0.win 6).blk t).view.emb (ix2 r j))
  rw [hemb]
  unfold outAt
  rw [pay2_apply, hnum, hden]
  rfl

/-- An index of the result array is in point `t`'s block iff each coordinate is in the block's range. -/
theorem mem_blk6 (t : Fin cfg0.N) (i : S4096x4096.Idx) :
    i ∈ ((cfg0.win 6).blk t).view.set ↔ ∀ a : Fin 2, win0_6.index t a * S256x4096.size a ≤ (i a).val ∧ (i a).val < win0_6.index t a * S256x4096.size a + S256x4096.size a := by
  show i ∈ ((View.whole main_v2).slice (win0_6.rect t)).set ↔ _
  rw [View.set_slice_whole, Rect.mem_set_unit]
  exact Iff.rfl

/-- The result array after the run is the specification's result. -/
theorem final (c : Dev nD) : (dats m 0 c).arrAt 6 cfg0.N = spec m c :=
  (dats m 0 c).arrAt_eq_of_cover 6 (spec m c) (fun t hf => out_eq m c t ((flush0_6 t).mp hf)) fun i => by
    have h0 := idx2_lt0 i
    have h1 := idx2_lt1 i
    have hN : cfg0.N = 128 := N_0
    have hlt : 8 * ((i 0).val / 256) + 7 < cfg0.N := by omega
    refine ⟨⟨8 * ((i 0).val / 256) + 7, hlt⟩, (flush0_6 _).mpr (by show (8 * ((i 0).val / 256) + 7) % 8 = 7; omega), ?_⟩
    rw [mem_blk6]
    have e0 := (idx_facts ⟨8 * ((i 0).val / 256) + 7, hlt⟩).2.2.2.2.2.2.2.2.2.2.2.2.1
    have e1 := (idx_facts ⟨8 * ((i 0).val / 256) + 7, hlt⟩).2.2.2.2.2.2.2.2.2.2.2.2.2
    intro a
    match a with
    | ⟨0, _⟩ =>
      show win0_6.index ⟨8 * ((i 0).val / 256) + 7, hlt⟩ 0 * 256 ≤ (i 0).val ∧ (i 0).val < win0_6.index ⟨8 * ((i 0).val / 256) + 7, hlt⟩ 0 * 256 + 256
      rw [e0]
      show (8 * ((i 0).val / 256) + 7) / 8 * 256 ≤ (i 0).val ∧ (i 0).val < (8 * ((i 0).val / 256) + 7) / 8 * 256 + 256
      omega
    | ⟨1, _⟩ =>
      show win0_6.index ⟨8 * ((i 0).val / 256) + 7, hlt⟩ 1 * 4096 ≤ (i 1).val ∧ (i 1).val < win0_6.index ⟨8 * ((i 0).val / 256) + 7, hlt⟩ 1 * 4096 + 4096
      rw [e1]
      omega

/-- The run, read: the result array at the specification's result, the arguments unchanged. -/
theorem run : θ_run defs (onTc (τ := τ) (main (F := Ideal))) ⟨m, fun _ => 0, ρ⟩ fun r => ∀ c : Dev nD,
      r.2.mem ((c.tc : Thread nD τ).loc main_v2) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Knn

end
-- ==== Proof.RefIsSpec.lean ====
/-
  The reference's result is the specification. Its squared norms are host sums started from zero, its
  inner product doubles the target row before the product, and it negates the distance where the
  specification subtracts it from zero; each difference is one law of the specification's module.
-/
import proofs.«101770_j38130719653974_1_alg».proof.Proof.Gen.ReferenceIdeal.Read
import proofs.«101770_j38130719653974_1_alg».proof.Proof.KnnSpec

noncomputable section

namespace Cert.KnnRef

open Cert.ReferenceIdeal Cert.ReferenceIdeal.Gen Cert.ReferenceIdeal.Read Idealize.ShloMosaic Idealize.ShloMosaic.ValueIdx KnnSpec
open scoped BigOperators

abbrev Arr : Type := (⟨S4096x1024, .f32⟩ : BufTy).Contents (Elt Ideal)
abbrev Col : Type := (⟨S4096, .f32⟩ : BufTy).Contents (Elt Ideal)

theorem idx_eq2 {n0 n1 : ℕ} (f : (⟨2, ![n0, n1]⟩ : Shape).Idx) (a : Fin n0) (b : Fin n1) (h0 : (f 0).val = a.val) (h1 : (f 1).val = b.val) :
    f = ix2 a b :=
  funext fun d => Fin.ext (by match d with | ⟨0, _⟩ => exact h0 | ⟨1, _⟩ => exact h1)

theorem idx_eq1 {n : ℕ} (f : (⟨1, ![n]⟩ : Shape).Idx) (a : Fin n) (h0 : (f 0).val = a.val) : f = ix1 a :=
  funext fun d => Fin.ext (by match d with | ⟨0, _⟩ => exact h0)

/-- The target rows' squared norms (rgb through `%8`, flow through `%27`). -/
theorem sq_target_rgb (x2 : Arr) (i : S4096.Idx) : val_main_v8 (F := Ideal) x2 i = zer + sqT x2 (i 0) := by
  rw [val_main_v8_apply]
  refine congrArg₂ (· + ·) rfl (Finset.sum_congr rfl fun k _ => ?_)
  rw [val_main_v7_apply, val_main_v6_apply, val_main_v5_apply, val_main_cst_apply, idx_eq2 (idx_main_v8 i k) (i 0) k rfl rfl]
  rfl

theorem sq_target_flow (x3 : Arr) (i : S4096.Idx) : val_main_v27 (F := Ideal) x3 i = zer + sqT x3 (i 0) := by
  rw [val_main_v27_apply]
  refine congrArg₂ (· + ·) rfl (Finset.sum_congr rfl fun k _ => ?_)
  rw [val_main_v26_apply, val_main_v25_apply, val_main_v24_apply, val_main_cst_4_apply, idx_eq2 (idx_main_v27 i k) (i 0) k rfl rfl]
  rfl

/-- The context rows' squared norms (rgb through `%11`, flow through `%30`). -/
theorem sq_context_rgb (x0 : Arr) (i : S4096.Idx) : val_main_v11 (F := Ideal) x0 i = zer + sqC x0 (i 0) := by
  rw [val_main_v11_apply]
  refine congrArg₂ (· + ·) rfl (Finset.sum_congr rfl fun k _ => ?_)
  rw [val_main_v10_apply, idx_eq2 (idx_main_v11 i k) (i 0) k rfl rfl]
  rfl

theorem sq_context_flow (x1 : Arr) (i : S4096.Idx) : val_main_v30 (F := Ideal) x1 i = zer + sqC x1 (i 0) := by
  rw [val_main_v30_apply]
  refine congrArg₂ (· + ·) rfl (Finset.sum_congr rfl fun k _ => ?_)
  rw [val_main_v29_apply, idx_eq2 (idx_main_v30 i k) (i 0) k rfl rfl]
  rfl

/-- The inner products: the doubled target row against the context row. -/
theorem cross_rgb (x0 x2 : Arr) (i : S4096x4096.Idx) : val_main_v19 (F := Ideal) x0 x2 i = two * crossTC x2 x0 (i 0) (i 1) := by
  rw [val_main_v19_apply]
  unfold crossTC
  rw [← sum_two_mul_mul]
  refine Finset.sum_congr rfl fun k _ => ?_
  rw [val_main_v17_apply, val_main_v16_apply, val_main_cst_2_apply, val_main_v6_apply, val_main_v5_apply, val_main_cst_apply, val_main_v18_apply,
    idx_eq2 (lidx_main_v19 i k) (i 0) k rfl rfl, idx_eq2 (idx_main_v18 (ridx_main_v19 i k)) (i 1) k rfl rfl]
  rfl

theorem cross_flow (x1 x3 : Arr) (i : S4096x4096.Idx) : val_main_v38 (F := Ideal) x1 x3 i = two * crossTC x3 x1 (i 0) (i 1) := by
  rw [val_main_v38_apply]
  unfold crossTC
  rw [← sum_two_mul_mul]
  refine Finset.sum_congr rfl fun k _ => ?_
  rw [val_main_v36_apply, val_main_v35_apply, val_main_cst_7_apply, val_main_v25_apply, val_main_v24_apply, val_main_cst_4_apply, val_main_v37_apply,
    idx_eq2 (lidx_main_v38 i k) (i 0) k rfl rfl, idx_eq2 (idx_main_v37 (ridx_main_v38 i k)) (i 1) k rfl rfl]
  rfl

/-- The two distances. -/
theorem dist_rgb (x0 x2 : Arr) (i : S4096x4096.Idx) :
    val_main_v23 (F := Ideal) x0 x2 i = dist (sqT x2 (i 0)) (sqC x0 (i 1)) (crossTC x2 x0 (i 0) (i 1)) := by
  rw [val_main_v23_apply, val_main_v22_apply, val_main_v20_apply, val_main_v15_apply, val_main_v13_apply, val_main_v9_apply,
    val_main_v14_apply, val_main_v12_apply, val_main_v21_apply, val_main_cst_3_apply, sq_target_rgb, sq_context_rgb, cross_rgb,
    KnnSpec.zer_add, KnnSpec.zer_add]
  rfl

theorem dist_flow (x1 x3 : Arr) (i : S4096x4096.Idx) :
    val_main_v42 (F := Ideal) x1 x3 i = dist (sqT x3 (i 0)) (sqC x1 (i 1)) (crossTC x3 x1 (i 0) (i 1)) := by
  rw [val_main_v42_apply, val_main_v41_apply, val_main_v39_apply, val_main_v34_apply, val_main_v32_apply, val_main_v28_apply,
    val_main_v33_apply, val_main_v31_apply, val_main_v40_apply, val_main_cst_8_apply, sq_target_flow, sq_context_flow, cross_flow,
    KnnSpec.zer_add, KnnSpec.zer_add]
  rfl

/-- The unnormalised posterior. -/
theorem post_eq (x0 x1 x2 x3 : Arr) (x4 x5 : Col) (i : S4096x4096.Idx) :
    val_main_v51 (F := Ideal) x0 x1 x2 x3 x4 x5 i = KnnSpec.post x2 x3 x0 x1 x4 x5 (i 0) (i 1) := by
  rw [val_main_v51_apply, val_main_v46_apply, val_main_v50_apply, val_main_v44_apply, val_main_v43_apply, val_main_v48_apply, val_main_v47_apply,
    val_main_v45_apply, val_main_v2_apply, val_main_v1_apply, val_main_v0_apply, val_main_v49_apply, val_main_v4_apply, val_main_v3_apply, val_main_v0_apply,
    dist_rgb, dist_flow, idx_eq1 (idx_main_v2 (idx_main_v45 i)) (i 0) rfl, idx_eq1 (idx_main_v4 (idx_main_v49 i)) (i 0) rfl]
  unfold KnnSpec.post mix
  rw [KnnSpec.zer_sub, KnnSpec.zer_sub]
  rfl

/-- The reference's result is the specification's, of the arguments in the kernel's order. -/
theorem result_eq (x0 x1 x2 x3 : Arr) (x4 x5 : Col) :
    val_main_v55 (F := Ideal) x0 x1 x2 x3 x4 x5 = KnnSpec.result x2 x3 x0 x1 x4 x5 := by
  funext i
  rw [val_main_v55_apply, post_eq, val_main_v54_apply, val_main_v53_apply, val_main_v52_apply]
  unfold KnnSpec.result
  have hs : (∑ k : Fin 4096, val_main_v51 (F := Ideal) x0 x1 x2 x3 x4 x5 (idx_main_v52 (idx_main_v53 (idx_main_v54 i)) k))
      = ∑ j : Fin 4096, KnnSpec.post x2 x3 x0 x1 x4 x5 (i 0) j :=
    Finset.sum_congr rfl fun k _ => by rw [post_eq]; rfl
  rw [hs]
  show Ideal.div _ (zer + _) = _
  rw [KnnSpec.zer_add]

end Cert.KnnRef

end
-- ==== Proof.lean ====
/-
  A pairwise-distance posterior, normalised by rows: for target rows T and context rows C (an rgb pair and a
  flow pair, 1024 features each), d(i, j) = sqrt (max (|T_i + eps|^2 + |C_j|^2 - 2 <T_i + eps, C_j>, 0)),
  post (i, j) = w_r(i) e^(-d_rgb(i, j)) + w_f(i) e^(-d_flow(i, j)) with w_r = c_r / (c_r + c_f) and
  w_f = c_f / (c_r + c_f), and the result is post (i, j) / sum_j' post (i, j').

  The kernel walks a 16 x 8 grid of 256-row by 512-column tiles. At each point it computes the tile of
  post, parks it in a 256 x 4096 scratch at its columns, and adds its row sums onto a 256 x 1 accumulator
  that restarts at the first column tile; at the last column tile it divides the scratch by the
  accumulator into the output block. Over the extended reals this is the reference's function: the
  matrix products and sums are exact, so the tiling, the order of the row sum, the factor two taken
  outside the inner product instead of inside, and 0 - d in place of -d change nothing. No law used
  needs the inputs to be finite, so the precondition is never opened.

  The three frames: the kernel's two instances through the same argument (an invariant carrying what the
  two scratches hold from point to point), the reference's from its run. Nothing was rewritten between
  the kernel and its idealization, so that conjunct is trivial.
-/
import proofs.«101770_j38130719653974_1_alg».proof.Defs
import proofs.«101770_j38130719653974_1_alg».proof.Proof.Gen.Kernel
import proofs.«101770_j38130719653974_1_alg».proof.Proof.Gen.KernelIdeal
import proofs.«101770_j38130719653974_1_alg».proof.Proof.Gen.ReferenceIdeal
import proofs.«101770_j38130719653974_1_alg».proof.Proof.Gen.Pre_finite_inputs
import proofs.«101770_j38130719653974_1_alg».proof.Proof.WordBody
import proofs.«101770_j38130719653974_1_alg».proof.Proof.IdealValue
import proofs.«101770_j38130719653974_1_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Knn.frame m ρ

theorem frame_ideal : Cert.frame_KernelIdeal := fun m ρ _ => Cert.KernelIdeal.Knn.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's result of the same six arrays. -/
theorem algebraic : Cert.algebraic_KernelIdeal_ReferenceIdeal := by
  intro m ρ m' ρ' _ hagree
  refine ⟨fun c => Cert.KernelIdeal.Knn.spec m c, Cert.KernelIdeal.Knn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.KnnRef.result_eq]
  obtain ⟨h0, h1, h2, h3, h4, h5⟩ := hagree c
  rw [h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
